-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x64 .f32) (main_arg1 : IVec S1600000 32) (main_arg2 : IVec S1600000 32) (main_arg3 : FVec F S1600000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  main_v8
-- ==== Kernel.lean ====
abbrev S100000x64 : Shape := ⟨2, ![100000, 64]⟩
abbrev S1600000 : Shape := ⟨1, ![1600000]⟩
abbrev S1600000x1 : Shape := ⟨2, ![1600000, 1]⟩
abbrev S_ : Shape := ⟨0, ![]⟩
abbrev S1600000x64 : Shape := ⟨2, ![1600000, 64]⟩
abbrev S10000x64 : Shape := ⟨2, ![10000, 64]⟩
abbrev S10000x1 : Shape := ⟨2, ![10000, 1]⟩
abbrev S100000x1x64 : Shape := ⟨3, ![100000, 1, 64]⟩
abbrev S100000x4x64 : Shape := ⟨3, ![100000, 4, 64]⟩
abbrev S4000x4x64 : Shape := ⟨3, ![4000, 4, 64]⟩
abbrev S4000x64 : Shape := ⟨2, ![4000, 64]⟩

abbrev nBuf : Space → Nat
  | .hbm => 53
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S1600000x1, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S1600000x64, .f32⟩
  | .hbm, ⟨15, _⟩ => ⟨S_, .f32⟩
  | .hbm, ⟨16, _⟩ => ⟨S100000x64, .f32⟩
  | .hbm, ⟨17, _⟩ => ⟨S1600000x1, .i32⟩
  | .hbm, ⟨18, _⟩ => ⟨S100000x64, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S100000x1x64, .f32⟩
  | .hbm, ⟨48, _⟩ => ⟨S100000x1x64, .f32⟩
  | .hbm, ⟨49, _⟩ => ⟨S100000x1x64, .f32⟩
  | .hbm, ⟨50, _⟩ => ⟨S100000x1x64, .f32⟩
  | .hbm, ⟨51, _⟩ => ⟨S100000x4x64, .f32⟩
  | .hbm, ⟨52, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x1, .f32⟩
  | .local _ .vmem, ⟨9, _⟩ => ⟨S10000x1, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x1, .f32⟩
  | .local _ .vmem, ⟨15, _⟩ => ⟨S10000x1, .f32⟩
  | .local _ .vmem, ⟨16, _⟩ => ⟨S10000x64, .f32⟩
  | .local _ .vmem, ⟨17, _⟩ => ⟨S10000x64, .f32⟩
  | .local _ .vmem, ⟨18, _⟩ => ⟨S4000x4x64, .f32⟩
  | .local _ .vmem, ⟨19, _⟩ => ⟨S4000x4x64, .f32⟩
  | .local _ .vmem, ⟨20, _⟩ => ⟨S4000x64, .f32⟩
  | .local _ .vmem, ⟨21, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x4x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  shapeCasts_S1600000_S1600000x1 : S1600000.ShapeCasts S1600000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  bcast_S100000x64_S100000x1x64_0_2 : S100000x64.BroadcastsInDim S100000x1x64 (![0, 2] : Fin 2 → Fin S100000x1x64.rank)
  concatenates_S100000x1x64_S100000x1x64_S100000x1x64_S100000x1x64_S100000x4x64_d1 : Shape.Concatenates [S100000x1x64, S100000x1x64, S100000x1x64, S100000x1x64] S100000x4x64 1
  inb_S4000x4x64_S4000x4x64_0_0_0 : ∀ a, (![0, 0, 0] : Fin 3 → Nat) a + S4000x4x64.size a ≤ S4000x4x64.size a
  h_S4000x4x64 : 0 < S4000x4x64.numel
  shapeCasts_S4000x4x64_S4000x4x64 : S4000x4x64.ShapeCasts S4000x4x64
  reduces_S4000x4x64_S4000x64 : S4000x4x64.Reduces [1] S4000x64
  inb_S4000x64_S4000x64_0_0 : ∀ a, (![0, 0] : Fin 2 → Nat) a + S4000x64.size a ≤ S4000x64.size a
  h_S4000x64 : 0 < S4000x64.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1600000x64.size a
  hwx0_0 : ∀ i : grid0.Coords, EltTy.bits .f32 = 32 ∨ (Rect.block (s := S1600000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S1600000x1.size a
  hwx0_1 : ∀ i : grid0.Coords, EltTy.bits .f32 = 32 ∨ (Rect.block (s := S1600000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S1600000x64.size a
  hwx0_2 : ∀ i : grid0.Coords, EltTy.bits .f32 = 32 ∨ (Rect.block (s := S1600000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1600000x64.size a
  hwx1_0 : ∀ i : grid1.Coords, EltTy.bits .f32 = 32 ∨ (Rect.block (s := S1600000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1600000x1.size a
  hwx1_1 : ∀ i : grid1.Coords, EltTy.bits .f32 = 32 ∨ (Rect.block (s := S1600000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S1600000x64.size a
  hwx1_2 : ∀ i : grid1.Coords, EltTy.bits .f32 = 32 ∨ (Rect.block (s := S1600000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S1600000x64.size a
  hwx2_0 : ∀ i : grid2.Coords, EltTy.bits .f32 = 32 ∨ (Rect.block (s := S1600000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S1600000x1.size a
  hwx2_1 : ∀ i : grid2.Coords, EltTy.bits .f32 = 32 ∨ (Rect.block (s := S1600000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S1600000x64.size a
  hwx2_2 : ∀ i : grid2.Coords, EltTy.bits .f32 = 32 ∨ (Rect.block (s := S1600000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x4x64.size a ≤ S100000x4x64.size a
  hwx3_0 : ∀ i : grid3.Coords, EltTy.bits .f32 = 32 ∨ (Rect.block (s := S100000x4x64) S4000x4x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S100000x64.size a
  hwx3_1 : ∀ i : grid3.Coords, EltTy.bits .f32 = 32 ∨ (Rect.block (s := S100000x64) S4000x64.size (cc3_transform_1 i) (hinb3_1 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v7) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v29) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S4000x4x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S4000x64.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S100000x64 : Shape := ⟨2, ![100000, 64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1x64 : Shape := ⟨3, ![100000, 1, 64]⟩
abbrev S100000x4x64 : Shape := ⟨3, ![100000, 4, 64]⟩

abbrev nBuf : Space → Nat
  | .hbm => 62
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S_, .i32⟩
  | .hbm, ⟨5, _⟩ => ⟨S1600000, .i32⟩
  | .hbm, ⟨6, _⟩ => ⟨S1600000, .i1⟩
  | .hbm, ⟨7, _⟩ => ⟨S_, .i32⟩
  | .hbm, ⟨8, _⟩ => ⟨S1600000, .i32⟩
  | .hbm, ⟨9, _⟩ => ⟨S1600000, .i32⟩
  | .hbm, ⟨10, _⟩ => ⟨S1600000, .i32⟩
  | .hbm, ⟨11, _⟩ => ⟨S1600000x1, .i32⟩
  | .hbm, ⟨12, _⟩ => ⟨S1600000x64, .f32⟩
  | .hbm, ⟨13, _⟩ => ⟨S1600000x1, .f32⟩
  | .hbm, ⟨14, _⟩ => ⟨S1600000x64, .f32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S1600000x1, .f32⟩
  | .hbm, ⟨30, _⟩ => ⟨S1600000x64, .f32⟩
  | .hbm, ⟨31, _⟩ => ⟨S1600000x64, .f32⟩
  | .hbm, ⟨32, _⟩ => ⟨S_, .f32⟩
  | .hbm, ⟨33, _⟩ => ⟨S100000x64, .f32⟩
  | .hbm, ⟨34, _⟩ => ⟨S1600000x1, .i32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S1600000x1, .f32⟩
  | .hbm, ⟨46, _⟩ => ⟨S1600000x64, .f32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S100000x1x64, .f32⟩
  | .hbm, ⟨53, _⟩ => ⟨S100000x1x64, .f32⟩
  | .hbm, ⟨54, _⟩ => ⟨S100000x1x64, .f32⟩
  | .hbm, ⟨55, _⟩ => ⟨S100000x1x64, .f32⟩
  | .hbm, ⟨56, _⟩ => ⟨S100000x4x64, .f32⟩
  | .hbm, ⟨57, _⟩ => ⟨S_, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x64_S100000x1x64_0_2 : S100000x64.BroadcastsInDim S100000x1x64 (![0, 2] : Fin 2 → Fin S100000x1x64.rank)
  concatenates_S100000x1x64_S100000x1x64_S100000x1x64_S100000x1x64_S100000x4x64_d1 : Shape.Concatenates [S100000x1x64, S100000x1x64, S100000x1x64, S100000x1x64] S100000x4x64 1
  reducesTo_S100000x4x64_S100000x64_d1 : S100000x4x64.ReducesTo [1] S100000x64
  h_S_ : 0 < S_.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KB.Reg0.lean ====
/-
  One edge-weighting call (the first of three): every grid point takes a block of 10000 gathered
  rows (64 features each) and the matching 10000 edge weights (one column) and writes back the rows, each
  multiplied through by its weight. Stated at ANY contents `V` of the buffers when the call is entered:
  what a point reads (`iblk0`), what the body leaves in the output block (`out0_2`: its one store, which
  covers the block), the body's run, and the pipeline's proof data with its obligation at every point.
-/
import proofs.«148305_j70188355551648_1_alg».proof.Proof.Gen.Kernel.Launch
import proofs.«148305_j70188355551648_1_alg».proof.Proof.Gen.Kernel.Skeleton
import proofs.«148305_j70188355551648_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block is in its staging buffer at every point (an input is never written by the body). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight block is in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 10000 × 64 block and the whole 10000 × 1 block: the only rectangles the body touches. -/
abbrev r0_0 : Rect S10000x64 := Rect.unit (s := S10000x64) ![0, 0] S10000x64.size inb_S10000x64_S10000x64_0_0
abbrev r0_1 : Rect S10000x1 := Rect.unit (s := S10000x1) ![0, 0] S10000x1.size inb_S10000x1_S10000x1_0_0

/-- The output block after the body: its single store, of the rows times their broadcast weights. -/
def out0_2 (x0 : Vec F S10000x64 .f32) (x1 : Vec F S10000x1 .f32) : Vec F S10000x64 .f32 :=
  View.canon [⟨r0_0, k0_pay1 (View.ld x0 r0_0) (View.ld x1 r0_1)⟩]

/-- That one store covers the block. -/
theorem cover0_2 (p0 : Vec F S10000x64 .f32) (y : S10000x64.Idx) :
    ∃ pc ∈ ([⟨r0_0, p0⟩] : List (View.Piece (Elt F) S10000x64 .f32)), y ∈ pc.1.set :=
  View.cover_of_tiled [⟨r0_0, p0⟩] S10000x64.size (by rfl) y

set_option maxHeartbeats 1000000 in
/-- The body on whole staging buffers: the inputs at `x0`, `x1` and the output at anything; it ends with the
    inputs unchanged and the output at `out0_2 x0 x1`. -/
theorem sound_kernel0 (c : Dev nD) (E : Set ℕ) (i : grid0.Coords) (arg1 : Memref sig .tc .vmem S10000x64 .f32) (harg1 : arg1.IsWhole) (arg2 : Memref sig .tc .vmem S10000x1 .f32) (harg2 : arg2.IsWhole) (arg3 : Memref sig .tc .vmem S10000x64 .f32) (harg3 : arg3.IsWhole)
    (x0 : Vec F S10000x64 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__weighted_mul_kernel i arg1 harg1 arg2 harg2 arg3 harg3) K := by
  simp only [cc0__weighted_mul_kernel_eq_skeleton]; unfold cc0__weighted_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the call finds them; after the body at point `t` the two
    input buffers still hold their blocks and the output buffer holds `out0_2` of them; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.Reg1.lean ====
/-
  One edge-weighting call (the second of three): every grid point takes a block of 10000 gathered
  rows (64 features each) and the matching 10000 edge weights (one column) and writes back the rows, each
  multiplied through by its weight. Stated at ANY contents `V` of the buffers when the call is entered:
  what a point reads (`iblk1`), what the body leaves in the output block (`out1_2`: its one store, which
  covers the block), the body's run, and the pipeline's proof data with its obligation at every point.
-/
import proofs.«148305_j70188355551648_1_alg».proof.Proof.Gen.Kernel.Launch
import proofs.«148305_j70188355551648_1_alg».proof.Proof.Gen.Kernel.Skeleton
import proofs.«148305_j70188355551648_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block is in its staging buffer at every point (an input is never written by the body). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight block is in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole 10000 × 64 block and the whole 10000 × 1 block: the only rectangles the body touches. -/
abbrev r1_0 : Rect S10000x64 := Rect.unit (s := S10000x64) ![0, 0] S10000x64.size inb_S10000x64_S10000x64_0_0
abbrev r1_1 : Rect S10000x1 := Rect.unit (s := S10000x1) ![0, 0] S10000x1.size inb_S10000x1_S10000x1_0_0

/-- The output block after the body: its single store, of the rows times their broadcast weights. -/
def out1_2 (x0 : Vec F S10000x64 .f32) (x1 : Vec F S10000x1 .f32) : Vec F S10000x64 .f32 :=
  View.canon [⟨r1_0, k1_pay1 (View.ld x0 r1_0) (View.ld x1 r1_1)⟩]

/-- That one store covers the block. -/
theorem cover1_2 (p0 : Vec F S10000x64 .f32) (y : S10000x64.Idx) :
    ∃ pc ∈ ([⟨r1_0, p0⟩] : List (View.Piece (Elt F) S10000x64 .f32)), y ∈ pc.1.set :=
  View.cover_of_tiled [⟨r1_0, p0⟩] S10000x64.size (by rfl) y

set_option maxHeartbeats 1000000 in
/-- The body on whole staging buffers: the inputs at `x0`, `x1` and the output at anything; it ends with the
    inputs unchanged and the output at `out1_2 x0 x1`. -/
theorem sound_kernel1 (c : Dev nD) (E : Set ℕ) (i : grid1.Coords) (arg1 : Memref sig .tc .vmem S10000x64 .f32) (harg1 : arg1.IsWhole) (arg2 : Memref sig .tc .vmem S10000x1 .f32) (harg2 : arg2.IsWhole) (arg3 : Memref sig .tc .vmem S10000x64 .f32) (harg3 : arg3.IsWhole)
    (x0 : Vec F S10000x64 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__weighted_mul_kernel i arg1 harg1 arg2 harg2 arg3 harg3) K := by
  simp only [cc1__weighted_mul_kernel_eq_skeleton]; unfold cc1__weighted_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the call finds them; after the body at point `t` the two
    input buffers still hold their blocks and the output buffer holds `out1_2` of them; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the body's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.Reg2.lean ====
/-
  One edge-weighting call (the third of three): every grid point takes a block of 10000 gathered
  rows (64 features each) and the matching 10000 edge weights (one column) and writes back the rows, each
  multiplied through by its weight. Stated at ANY contents `V` of the buffers when the call is entered:
  what a point reads (`iblk2`), what the body leaves in the output block (`out2_2`: its one store, which
  covers the block), the body's run, and the pipeline's proof data with its obligation at every point.
-/
import proofs.«148305_j70188355551648_1_alg».proof.Proof.Gen.Kernel.Launch
import proofs.«148305_j70188355551648_1_alg».proof.Proof.Gen.Kernel.Skeleton
import proofs.«148305_j70188355551648_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block is in its staging buffer at every point (an input is never written by the body). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight block is in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 10000 × 64 block and the whole 10000 × 1 block: the only rectangles the body touches. -/
abbrev r2_0 : Rect S10000x64 := Rect.unit (s := S10000x64) ![0, 0] S10000x64.size inb_S10000x64_S10000x64_0_0
abbrev r2_1 : Rect S10000x1 := Rect.unit (s := S10000x1) ![0, 0] S10000x1.size inb_S10000x1_S10000x1_0_0

/-- The output block after the body: its single store, of the rows times their broadcast weights. -/
def out2_2 (x0 : Vec F S10000x64 .f32) (x1 : Vec F S10000x1 .f32) : Vec F S10000x64 .f32 :=
  View.canon [⟨r2_0, k2_pay1 (View.ld x0 r2_0) (View.ld x1 r2_1)⟩]

/-- That one store covers the block. -/
theorem cover2_2 (p0 : Vec F S10000x64 .f32) (y : S10000x64.Idx) :
    ∃ pc ∈ ([⟨r2_0, p0⟩] : List (View.Piece (Elt F) S10000x64 .f32)), y ∈ pc.1.set :=
  View.cover_of_tiled [⟨r2_0, p0⟩] S10000x64.size (by rfl) y

set_option maxHeartbeats 1000000 in
/-- The body on whole staging buffers: the inputs at `x0`, `x1` and the output at anything; it ends with the
    inputs unchanged and the output at `out2_2 x0 x1`. -/
theorem sound_kernel2 (c : Dev nD) (E : Set ℕ) (i : grid2.Coords) (arg1 : Memref sig .tc .vmem S10000x64 .f32) (harg1 : arg1.IsWhole) (arg2 : Memref sig .tc .vmem S10000x1 .f32) (harg2 : arg2.IsWhole) (arg3 : Memref sig .tc .vmem S10000x64 .f32) (harg3 : arg3.IsWhole)
    (x0 : Vec F S10000x64 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__weighted_mul_kernel i arg1 harg1 arg2 harg2 arg3 harg3) K := by
  simp only [cc2__weighted_mul_kernel_eq_skeleton]; unfold cc2__weighted_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the call finds them; after the body at point `t` the two
    input buffers still hold their blocks and the output buffer holds `out2_2` of them; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the body's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KB.Reg3.lean ====
/-
  The pooling call: every grid point takes a block of 4000 nodes, each with its four stacked layers of 64 features,
  and writes back, per node and feature, the sum over the four layers times one quarter. Stated at ANY contents
  `V` of the buffers when the call is entered: what a point reads (`iblk3`), what the body leaves in the output
  block (`out3_1`: its one store, which covers the block), the body's run, and the pipeline's proof data with its
  obligation at every point.
-/
import proofs.«148305_j70188355551648_1_alg».proof.Proof.Gen.Kernel.Launch
import proofs.«148305_j70188355551648_1_alg».proof.Proof.Gen.Kernel.Skeleton
import proofs.«148305_j70188355551648_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The stacked block is in its staging buffer at every point (an input is never written by the body). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The whole 4000 × 4 × 64 block and the whole 4000 × 64 block: the only rectangles the body touches. -/
abbrev r3_0 : Rect S4000x4x64 := Rect.unit (s := S4000x4x64) ![0, 0, 0] S4000x4x64.size inb_S4000x4x64_S4000x4x64_0_0_0
abbrev r3_1 : Rect S4000x64 := Rect.unit (s := S4000x64) ![0, 0] S4000x64.size inb_S4000x64_S4000x64_0_0

/-- The output block after the body: its single store, of the layer sums times one quarter. -/
def out3_1 (x0 : Vec F S4000x4x64 .f32) : Vec F S4000x64 .f32 :=
  View.canon [⟨r3_1, k3_pay1 (View.ld x0 r3_0)⟩]

/-- That one store covers the block. -/
theorem cover3_1 (p0 : Vec F S4000x64 .f32) (y : S4000x64.Idx) :
    ∃ pc ∈ ([⟨r3_1, p0⟩] : List (View.Piece (Elt F) S4000x64 .f32)), y ∈ pc.1.set :=
  View.cover_of_tiled [⟨r3_1, p0⟩] S4000x64.size (by rfl) y

set_option maxHeartbeats 1000000 in
/-- The body on whole staging buffers: the input at `x0` and the output at anything; it ends with the input
    unchanged and the output at `out3_1 x0`. -/
theorem sound_kernel3 (c : Dev nD) (E : Set ℕ) (i : grid3.Coords) (arg1 : Memref sig .tc .vmem S4000x4x64 .f32) (harg1 : arg1.IsWhole) (arg2 : Memref sig .tc .vmem S4000x64 .f32) (harg2 : arg2.IsWhole)
    (x0 : Vec F S4000x4x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__mean_pool_kernel i arg1 harg1 arg2 harg2) K := by
  simp only [cc3__mean_pool_kernel_eq_skeleton]; unfold cc3__mean_pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The pipeline's proof data on core `c`: the arrays as the call finds them; after the body at point `t` the
    input buffer still holds its block and the output buffer holds `out3_1` of it; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem before3_0 (c : Dev nD) (t : Fin cfg3.N) (d) : (dat3 V c).before 0 t d = iblk3 V c 0 t :=
  before3_0_of V (dat3 V c) (A_eq3 V c 0) (after3_0 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input buffer holds its block, so the body's run applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ (grid3.coords t) _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KB.Run.lean ====
/-
  The whole program as one run. Its body is eight stretches in order: host operations, an edge-weighting call,
  host operations, a second edge-weighting call, host operations, a third, host operations, the pooling call.
  The contents of the unscoped buffers at each of the nine boundaries are named `W0` … `W8`: a host stretch
  applies its operations to the contents before it; a call leaves every buffer as it found it except the
  arrays of its windows, which end at what the pipeline's write-backs leave (an input array is unchanged, the
  output array is the fold of the flushed blocks). Each call is entered from all unscoped buffers at the
  boundary's contents and left at the next boundary's; chaining the eight gives a run of the program from any
  launch memory that terminates without a fault with every unscoped buffer at `W8`. No stretch writes an
  argument array, so `W8` at each argument is the launch memory.
-/
import proofs.«148305_j70188355551648_1_alg».proof.Proof.Gen.Kernel.Launch
import proofs.«148305_j70188355551648_1_alg».proof.Proof.Gen.Kernel.Skeleton
import proofs.«148305_j70188355551648_1_alg».proof.Proof.Gen.Kernel.Points
import proofs.«148305_j70188355551648_1_alg».proof.Proof.KB.Reg0
import proofs.«148305_j70188355551648_1_alg».proof.Proof.KB.Reg1
import proofs.«148305_j70188355551648_1_alg».proof.Proof.KB.Reg2
import proofs.«148305_j70188355551648_1_alg».proof.Proof.KB.Reg3
import proofs.«148305_j70188355551648_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the nine boundaries -/

/-- At launch. -/
abbrev W0 : Dev nD → Valuation τ sig (Elt F) := fun c b => (s₀ m ρ).mem ((c : Dev nD), b)
/-- After host stretch 0 (call 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At call 0's exit: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (call 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At call 1's exit: its windows' arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2 (call 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At call 2's exit: its windows' arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3 (call 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At call 3's exit: its windows' arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## A buffer no stretch writes keeps its launch contents -/

/-- A buffer that no host operation writes and that is no window's array of any call ends as launched. -/
theorem W8_untouched (c : Dev nD) (r : Ref sig .tc)
    (h0 : r ∉ hostOps0_W) (h1 : r ∉ hostOps1_W) (h2 : r ∉ hostOps2_W) (h3 : r ∉ hostOps3_W)
    (g0 : ∀ w, Pipeline.arrRef spec0 w ≠ r) (g1 : ∀ w, Pipeline.arrRef spec1 w ≠ r)
    (g2 : ∀ w, Pipeline.arrRef spec2 w ≠ r) (g3 : ∀ w, Pipeline.arrRef spec3 w ≠ r) :
    W8 m ρ c (Proc.devRef .tc r) = m ((c : Thread nD τ).loc r) :=
  calc W8 m ρ c (Proc.devRef .tc r)
    _ = W7 m ρ c (Proc.devRef .tc r) := W8_of_ne m ρ c r g3
    _ = W6 m ρ c (Proc.devRef .tc r) := StableHlo.after_of_writes_sub hostOps3 _ hostOps3_writes h3
    _ = W5 m ρ c (Proc.devRef .tc r) := W6_of_ne m ρ c r g2
    _ = W4 m ρ c (Proc.devRef .tc r) := StableHlo.after_of_writes_sub hostOps2 _ hostOps2_writes h2
    _ = W3 m ρ c (Proc.devRef .tc r) := W4_of_ne m ρ c r g1
    _ = W2 m ρ c (Proc.devRef .tc r) := StableHlo.after_of_writes_sub hostOps1 _ hostOps1_writes h1
    _ = W1 m ρ c (Proc.devRef .tc r) := W2_of_ne m ρ c r g0
    _ = W0 m ρ c (Proc.devRef .tc r) := StableHlo.after_of_writes_sub hostOps0 _ hostOps0_writes h0
    _ = m ((c : Thread nD τ).loc r) := rfl

theorem W8_main_arg0 (c : Dev nD) : W8 m ρ c (Proc.devRef .tc main_arg0) = m ((c : Thread nD τ).loc main_arg0) :=
  W8_untouched m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_untouched m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_untouched m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_untouched m ρ c main_arg3 (by decide) (by decide) (by decide) (by decide) (by decide) (by decide) (by decide) (by decide)

/-! ## The proof data family and the thread state -/

abbrev adm : (p : Fin 4) → (pcfgs (F := F) p).Adm := fun p => (cfgs p).toPCfg_adm
/-- Every pipeline's proof data, each at its call's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
/-- What rides beside the buffers through every stretch: the generator register at some state, nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W8`, the generator register at some state. -/
abbrev Tₙ (c : Dev nD) : sProp 𝕄 := iprop(StableHlo.held (c : Thread nD τ) (Pipeline.ucRefs τ sig) (W8 m ρ c) ∗ ∃ r, prngReg c r)

/-! ## The calls as segments -/

set_option backward.isDefEq.respectTransparency.types false in
/-- Call 0 over the thread state: entered from every unscoped buffer at `W1`, left at `W2`. Its arrays are split
    out of the unscoped buffers at entry and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W3`, left at `W4`. Its arrays are split
    out of the unscoped buffers at entry and put back at the exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W5`, left at `W6`. Its arrays are split
    out of the unscoped buffers at entry and put back at the exit contents. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered from every unscoped buffer at `W7`, left at `W8`. Its arrays are split
    out of the unscoped buffers at entry and put back at the exit contents. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

theorem main_run (c : Dev nD) : main (F := F) c = Pipeline.Seg.run (segs m ρ) := (main_chain c).trans (by chain_rfl)

set_option backward.isDefEq.respectTransparency.types false in
/-- THE RUN: from any launch memory with zero counters, every weakly fair execution of the program terminates,
    nothing faulting, and every final memory holds each unscoped buffer at `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c)⟩) (run_all m ρ)

end Cert.Kernel.Fr

end
-- ==== Proof.KI.Reg0.lean ====
/-
  One edge-weighting call (the first of three): every grid point takes a block of 10000 gathered
  rows (64 features each) and the matching 10000 edge weights (one column) and writes back the rows, each
  multiplied through by its weight. Stated at ANY contents `V` of the buffers when the call is entered:
  what a point reads (`iblk0`), what the body leaves in the output block (`out0_2`: its one store, which
  covers the block), the body's run, and the pipeline's proof data with its obligation at every point.
-/
import proofs.«148305_j70188355551648_1_alg».proof.Proof.Gen.KernelIdeal.Launch
import proofs.«148305_j70188355551648_1_alg».proof.Proof.Gen.KernelIdeal.Skeleton
import proofs.«148305_j70188355551648_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block is in its staging buffer at every point (an input is never written by the body). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight block is in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 10000 × 64 block and the whole 10000 × 1 block: the only rectangles the body touches. -/
abbrev r0_0 : Rect S10000x64 := Rect.unit (s := S10000x64) ![0, 0] S10000x64.size inb_S10000x64_S10000x64_0_0
abbrev r0_1 : Rect S10000x1 := Rect.unit (s := S10000x1) ![0, 0] S10000x1.size inb_S10000x1_S10000x1_0_0

/-- The output block after the body: its single store, of the rows times their broadcast weights. -/
def out0_2 (x0 : Vec F S10000x64 .f32) (x1 : Vec F S10000x1 .f32) : Vec F S10000x64 .f32 :=
  View.canon [⟨r0_0, k0_pay1 (View.ld x0 r0_0) (View.ld x1 r0_1)⟩]

/-- That one store covers the block. -/
theorem cover0_2 (p0 : Vec F S10000x64 .f32) (y : S10000x64.Idx) :
    ∃ pc ∈ ([⟨r0_0, p0⟩] : List (View.Piece (Elt F) S10000x64 .f32)), y ∈ pc.1.set :=
  View.cover_of_tiled [⟨r0_0, p0⟩] S10000x64.size (by rfl) y

set_option maxHeartbeats 1000000 in
/-- The body on whole staging buffers: the inputs at `x0`, `x1` and the output at anything; it ends with the
    inputs unchanged and the output at `out0_2 x0 x1`. -/
theorem sound_kernel0 (c : Dev nD) (E : Set ℕ) (i : grid0.Coords) (arg1 : Memref sig .tc .vmem S10000x64 .f32) (harg1 : arg1.IsWhole) (arg2 : Memref sig .tc .vmem S10000x1 .f32) (harg2 : arg2.IsWhole) (arg3 : Memref sig .tc .vmem S10000x64 .f32) (harg3 : arg3.IsWhole)
    (x0 : Vec F S10000x64 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__weighted_mul_kernel i arg1 harg1 arg2 harg2 arg3 harg3) K := by
  simp only [cc0__weighted_mul_kernel_eq_skeleton]; unfold cc0__weighted_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the call finds them; after the body at point `t` the two
    input buffers still hold their blocks and the output buffer holds `out0_2` of them; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
/-
  One edge-weighting call (the second of three): every grid point takes a block of 10000 gathered
  rows (64 features each) and the matching 10000 edge weights (one column) and writes back the rows, each
  multiplied through by its weight. Stated at ANY contents `V` of the buffers when the call is entered:
  what a point reads (`iblk1`), what the body leaves in the output block (`out1_2`: its one store, which
  covers the block), the body's run, and the pipeline's proof data with its obligation at every point.
-/
import proofs.«148305_j70188355551648_1_alg».proof.Proof.Gen.KernelIdeal.Launch
import proofs.«148305_j70188355551648_1_alg».proof.Proof.Gen.KernelIdeal.Skeleton
import proofs.«148305_j70188355551648_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block is in its staging buffer at every point (an input is never written by the body). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight block is in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole 10000 × 64 block and the whole 10000 × 1 block: the only rectangles the body touches. -/
abbrev r1_0 : Rect S10000x64 := Rect.unit (s := S10000x64) ![0, 0] S10000x64.size inb_S10000x64_S10000x64_0_0
abbrev r1_1 : Rect S10000x1 := Rect.unit (s := S10000x1) ![0, 0] S10000x1.size inb_S10000x1_S10000x1_0_0

/-- The output block after the body: its single store, of the rows times their broadcast weights. -/
def out1_2 (x0 : Vec F S10000x64 .f32) (x1 : Vec F S10000x1 .f32) : Vec F S10000x64 .f32 :=
  View.canon [⟨r1_0, k1_pay1 (View.ld x0 r1_0) (View.ld x1 r1_1)⟩]

/-- That one store covers the block. -/
theorem cover1_2 (p0 : Vec F S10000x64 .f32) (y : S10000x64.Idx) :
    ∃ pc ∈ ([⟨r1_0, p0⟩] : List (View.Piece (Elt F) S10000x64 .f32)), y ∈ pc.1.set :=
  View.cover_of_tiled [⟨r1_0, p0⟩] S10000x64.size (by rfl) y

set_option maxHeartbeats 1000000 in
/-- The body on whole staging buffers: the inputs at `x0`, `x1` and the output at anything; it ends with the
    inputs unchanged and the output at `out1_2 x0 x1`. -/
theorem sound_kernel1 (c : Dev nD) (E : Set ℕ) (i : grid1.Coords) (arg1 : Memref sig .tc .vmem S10000x64 .f32) (harg1 : arg1.IsWhole) (arg2 : Memref sig .tc .vmem S10000x1 .f32) (harg2 : arg2.IsWhole) (arg3 : Memref sig .tc .vmem S10000x64 .f32) (harg3 : arg3.IsWhole)
    (x0 : Vec F S10000x64 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__weighted_mul_kernel i arg1 harg1 arg2 harg2 arg3 harg3) K := by
  simp only [cc1__weighted_mul_kernel_eq_skeleton]; unfold cc1__weighted_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the call finds them; after the body at point `t` the two
    input buffers still hold their blocks and the output buffer holds `out1_2` of them; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the body's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
/-
  One edge-weighting call (the third of three): every grid point takes a block of 10000 gathered
  rows (64 features each) and the matching 10000 edge weights (one column) and writes back the rows, each
  multiplied through by its weight. Stated at ANY contents `V` of the buffers when the call is entered:
  what a point reads (`iblk2`), what the body leaves in the output block (`out2_2`: its one store, which
  covers the block), the body's run, and the pipeline's proof data with its obligation at every point.
-/
import proofs.«148305_j70188355551648_1_alg».proof.Proof.Gen.KernelIdeal.Launch
import proofs.«148305_j70188355551648_1_alg».proof.Proof.Gen.KernelIdeal.Skeleton
import proofs.«148305_j70188355551648_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block is in its staging buffer at every point (an input is never written by the body). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight block is in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 10000 × 64 block and the whole 10000 × 1 block: the only rectangles the body touches. -/
abbrev r2_0 : Rect S10000x64 := Rect.unit (s := S10000x64) ![0, 0] S10000x64.size inb_S10000x64_S10000x64_0_0
abbrev r2_1 : Rect S10000x1 := Rect.unit (s := S10000x1) ![0, 0] S10000x1.size inb_S10000x1_S10000x1_0_0

/-- The output block after the body: its single store, of the rows times their broadcast weights. -/
def out2_2 (x0 : Vec F S10000x64 .f32) (x1 : Vec F S10000x1 .f32) : Vec F S10000x64 .f32 :=
  View.canon [⟨r2_0, k2_pay1 (View.ld x0 r2_0) (View.ld x1 r2_1)⟩]

/-- That one store covers the block. -/
theorem cover2_2 (p0 : Vec F S10000x64 .f32) (y : S10000x64.Idx) :
    ∃ pc ∈ ([⟨r2_0, p0⟩] : List (View.Piece (Elt F) S10000x64 .f32)), y ∈ pc.1.set :=
  View.cover_of_tiled [⟨r2_0, p0⟩] S10000x64.size (by rfl) y

set_option maxHeartbeats 1000000 in
/-- The body on whole staging buffers: the inputs at `x0`, `x1` and the output at anything; it ends with the
    inputs unchanged and the output at `out2_2 x0 x1`. -/
theorem sound_kernel2 (c : Dev nD) (E : Set ℕ) (i : grid2.Coords) (arg1 : Memref sig .tc .vmem S10000x64 .f32) (harg1 : arg1.IsWhole) (arg2 : Memref sig .tc .vmem S10000x1 .f32) (harg2 : arg2.IsWhole) (arg3 : Memref sig .tc .vmem S10000x64 .f32) (harg3 : arg3.IsWhole)
    (x0 : Vec F S10000x64 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__weighted_mul_kernel i arg1 harg1 arg2 harg2 arg3 harg3) K := by
  simp only [cc2__weighted_mul_kernel_eq_skeleton]; unfold cc2__weighted_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the call finds them; after the body at point `t` the two
    input buffers still hold their blocks and the output buffer holds `out2_2` of them; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the body's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Reg3.lean ====
/-
  The pooling call: every grid point takes a block of 4000 nodes, each with its four stacked layers of 64 features,
  and writes back, per node and feature, the sum over the four layers times one quarter. Stated at ANY contents
  `V` of the buffers when the call is entered: what a point reads (`iblk3`), what the body leaves in the output
  block (`out3_1`: its one store, which covers the block), the body's run, and the pipeline's proof data with its
  obligation at every point.
-/
import proofs.«148305_j70188355551648_1_alg».proof.Proof.Gen.KernelIdeal.Launch
import proofs.«148305_j70188355551648_1_alg».proof.Proof.Gen.KernelIdeal.Skeleton
import proofs.«148305_j70188355551648_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The stacked block is in its staging buffer at every point (an input is never written by the body). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The whole 4000 × 4 × 64 block and the whole 4000 × 64 block: the only rectangles the body touches. -/
abbrev r3_0 : Rect S4000x4x64 := Rect.unit (s := S4000x4x64) ![0, 0, 0] S4000x4x64.size inb_S4000x4x64_S4000x4x64_0_0_0
abbrev r3_1 : Rect S4000x64 := Rect.unit (s := S4000x64) ![0, 0] S4000x64.size inb_S4000x64_S4000x64_0_0

/-- The output block after the body: its single store, of the layer sums times one quarter. -/
def out3_1 (x0 : Vec F S4000x4x64 .f32) : Vec F S4000x64 .f32 :=
  View.canon [⟨r3_1, k3_pay1 (View.ld x0 r3_0)⟩]

/-- That one store covers the block. -/
theorem cover3_1 (p0 : Vec F S4000x64 .f32) (y : S4000x64.Idx) :
    ∃ pc ∈ ([⟨r3_1, p0⟩] : List (View.Piece (Elt F) S4000x64 .f32)), y ∈ pc.1.set :=
  View.cover_of_tiled [⟨r3_1, p0⟩] S4000x64.size (by rfl) y

set_option maxHeartbeats 1000000 in
/-- The body on whole staging buffers: the input at `x0` and the output at anything; it ends with the input
    unchanged and the output at `out3_1 x0`. -/
theorem sound_kernel3 (c : Dev nD) (E : Set ℕ) (i : grid3.Coords) (arg1 : Memref sig .tc .vmem S4000x4x64 .f32) (harg1 : arg1.IsWhole) (arg2 : Memref sig .tc .vmem S4000x64 .f32) (harg2 : arg2.IsWhole)
    (x0 : Vec F S4000x4x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__mean_pool_kernel i arg1 harg1 arg2 harg2) K := by
  simp only [cc3__mean_pool_kernel_eq_skeleton]; unfold cc3__mean_pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The pipeline's proof data on core `c`: the arrays as the call finds them; after the body at point `t` the
    input buffer still holds its block and the output buffer holds `out3_1` of it; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem before3_0 (c : Dev nD) (t : Fin cfg3.N) (d) : (dat3 V c).before 0 t d = iblk3 V c 0 t :=
  before3_0_of V (dat3 V c) (A_eq3 V c 0) (after3_0 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input buffer holds its block, so the body's run applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ (grid3.coords t) _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Run.lean ====
/-
  The whole program as one run. Its body is eight stretches in order: host operations, an edge-weighting call,
  host operations, a second edge-weighting call, host operations, a third, host operations, the pooling call.
  The contents of the unscoped buffers at each of the nine boundaries are named `W0` … `W8`: a host stretch
  applies its operations to the contents before it; a call leaves every buffer as it found it except the
  arrays of its windows, which end at what the pipeline's write-backs leave (an input array is unchanged, the
  output array is the fold of the flushed blocks). Each call is entered from all unscoped buffers at the
  boundary's contents and left at the next boundary's; chaining the eight gives a run of the program from any
  launch memory that terminates without a fault with every unscoped buffer at `W8`. No stretch writes an
  argument array, so `W8` at each argument is the launch memory.
-/
import proofs.«148305_j70188355551648_1_alg».proof.Proof.Gen.KernelIdeal.Launch
import proofs.«148305_j70188355551648_1_alg».proof.Proof.Gen.KernelIdeal.Skeleton
import proofs.«148305_j70188355551648_1_alg».proof.Proof.Gen.KernelIdeal.Points
import proofs.«148305_j70188355551648_1_alg».proof.Proof.KI.Reg0
import proofs.«148305_j70188355551648_1_alg».proof.Proof.KI.Reg1
import proofs.«148305_j70188355551648_1_alg».proof.Proof.KI.Reg2
import proofs.«148305_j70188355551648_1_alg».proof.Proof.KI.Reg3
import proofs.«148305_j70188355551648_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the nine boundaries -/

/-- At launch. -/
abbrev W0 : Dev nD → Valuation τ sig (Elt F) := fun c b => (s₀ m ρ).mem ((c : Dev nD), b)
/-- After host stretch 0 (call 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At call 0's exit: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (call 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At call 1's exit: its windows' arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2 (call 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At call 2's exit: its windows' arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3 (call 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At call 3's exit: its windows' arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## A buffer no stretch writes keeps its launch contents -/

/-- A buffer that no host operation writes and that is no window's array of any call ends as launched. -/
theorem W8_untouched (c : Dev nD) (r : Ref sig .tc)
    (h0 : r ∉ hostOps0_W) (h1 : r ∉ hostOps1_W) (h2 : r ∉ hostOps2_W) (h3 : r ∉ hostOps3_W)
    (g0 : ∀ w, Pipeline.arrRef spec0 w ≠ r) (g1 : ∀ w, Pipeline.arrRef spec1 w ≠ r)
    (g2 : ∀ w, Pipeline.arrRef spec2 w ≠ r) (g3 : ∀ w, Pipeline.arrRef spec3 w ≠ r) :
    W8 m ρ c (Proc.devRef .tc r) = m ((c : Thread nD τ).loc r) :=
  calc W8 m ρ c (Proc.devRef .tc r)
    _ = W7 m ρ c (Proc.devRef .tc r) := W8_of_ne m ρ c r g3
    _ = W6 m ρ c (Proc.devRef .tc r) := StableHlo.after_of_writes_sub hostOps3 _ hostOps3_writes h3
    _ = W5 m ρ c (Proc.devRef .tc r) := W6_of_ne m ρ c r g2
    _ = W4 m ρ c (Proc.devRef .tc r) := StableHlo.after_of_writes_sub hostOps2 _ hostOps2_writes h2
    _ = W3 m ρ c (Proc.devRef .tc r) := W4_of_ne m ρ c r g1
    _ = W2 m ρ c (Proc.devRef .tc r) := StableHlo.after_of_writes_sub hostOps1 _ hostOps1_writes h1
    _ = W1 m ρ c (Proc.devRef .tc r) := W2_of_ne m ρ c r g0
    _ = W0 m ρ c (Proc.devRef .tc r) := StableHlo.after_of_writes_sub hostOps0 _ hostOps0_writes h0
    _ = m ((c : Thread nD τ).loc r) := rfl

theorem W8_main_arg0 (c : Dev nD) : W8 m ρ c (Proc.devRef .tc main_arg0) = m ((c : Thread nD τ).loc main_arg0) :=
  W8_untouched m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_untouched m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_untouched m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_untouched m ρ c main_arg3 (by decide) (by decide) (by decide) (by decide) (by decide) (by decide) (by decide) (by decide)

/-! ## The proof data family and the thread state -/

abbrev adm : (p : Fin 4) → (pcfgs (F := F) p).Adm := fun p => (cfgs p).toPCfg_adm
/-- Every pipeline's proof data, each at its call's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
/-- What rides beside the buffers through every stretch: the generator register at some state, nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W8`, the generator register at some state. -/
abbrev Tₙ (c : Dev nD) : sProp 𝕄 := iprop(StableHlo.held (c : Thread nD τ) (Pipeline.ucRefs τ sig) (W8 m ρ c) ∗ ∃ r, prngReg c r)

/-! ## The calls as segments -/

set_option backward.isDefEq.respectTransparency.types false in
/-- Call 0 over the thread state: entered from every unscoped buffer at `W1`, left at `W2`. Its arrays are split
    out of the unscoped buffers at entry and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W3`, left at `W4`. Its arrays are split
    out of the unscoped buffers at entry and put back at the exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W5`, left at `W6`. Its arrays are split
    out of the unscoped buffers at entry and put back at the exit contents. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered from every unscoped buffer at `W7`, left at `W8`. Its arrays are split
    out of the unscoped buffers at entry and put back at the exit contents. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

theorem main_run (c : Dev nD) : main (F := F) c = Pipeline.Seg.run (segs m ρ) := (main_chain c).trans (by chain_rfl)

set_option backward.isDefEq.respectTransparency.types false in
/-- THE RUN: from any launch memory with zero counters, every weakly fair execution of the program terminates,
    nothing faulting, and every final memory holds each unscoped buffer at `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c)⟩) (run_all m ρ)

end Cert.KernelIdeal.Fr

end
-- ==== Proof.Spec.lean ====
/-
  The function both programs compute, on the extended reals.

  A layer sends node features `h` (100000 nodes × 64 features) to the edge-weighted neighbour sum: for every
  edge `e` take the feature row of its source node (a negative source index counted from the end), multiply
  the row through by the edge's weight, and add it into the row of the edge's destination node, starting from
  zero. The result is the mean over the input and three successive layers: the four arrays stacked along a
  new middle axis, summed along it and scaled by one quarter.

  The gather, the scatter-add and the stacking are kept as the host operations both programs print; what is
  spelled out index by index is only where the two programs differ in form: the per-edge weighting
  (`wmul`) and the final mean (`pool`).
-/
import proofs.«148305_j70188355551648_1_alg».proof.Proof.Gen.KernelIdeal
import Idealize.ShloMosaic.PureOps.Ideal
import Idealize.ShloMosaic.Lib.ValueIdx

noncomputable section

namespace Cert.Spec

open Idealize.ShloMosaic Idealize.ShloMosaic.ValueIdx
open Cert.KernelIdeal Cert.KernelIdeal.Gen

/-- Edge `e`'s gathered row times edge `e`'s weight, feature by feature. -/
def wmul (xs : FVec Ideal S1600000x64 .f32) (w : FVec Ideal S1600000 .f32) : FVec Ideal S1600000x64 .f32 :=
  fun i => xs i * w (ix1 (i 0))

/-- The same with the weights given as a one-column array. -/
def wcol (xs : FVec Ideal S1600000x64 .f32) (wc : FVec Ideal S1600000x1 .f32) : FVec Ideal S1600000x64 .f32 :=
  fun i => xs i * wc (ix2 (i 0) 0)

/-- Per node and feature, the sum over the four stacked layers, times one quarter. -/
def pool (st : FVec Ideal S100000x4x64 .f32) : FVec Ideal S100000x64 .f32 :=
  fun i => (∑ k : Fin 4, st (ix3 (i 0) k (i 1))) * ((1 / 4 : ℝ) : EReal)

/-- The source indices as the gather takes them: a negative index has the node count added, and the
    vector becomes a column. -/
def srcIdx (a1 : Vec Ideal S1600000 .i32) : Vec Ideal S1600000x1 .i32 :=
  broadcastInDim S1600000x1 ![0] bcast_S1600000_S1600000x1_0
    (select (cmpi .slt a1 (broadcastInDim S1600000 ![] bcast_S_S1600000 (constantI S_ 32 0#32)))
      (addi a1 (broadcastInDim S1600000 ![] bcast_S_S1600000 (constantI S_ 32 100000#32))) a1)

/-- One layer: gather the source rows, weight them, scatter-add them to the destination rows from zero. -/
def layer (h : FVec Ideal S100000x64 .f32) (a1 a2 : Vec Ideal S1600000 .i32) (w : FVec Ideal S1600000 .f32) :
    FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 a2)
    (wmul (Host.gather gather_S100000x64_S1600000x1_S1600000x64_1_0_n_n_0_1_164 h (srcIdx a1)) w)

/-- Four node-feature arrays stacked along a new middle axis. -/
def stack (x h1 h2 h3 : FVec Ideal S100000x64 .f32) : FVec Ideal S100000x4x64 .f32 :=
  concatenate S100000x4x64 1
    [⟨S100000x1x64, broadcastInDim S100000x1x64 ![0, 2] bcast_S100000x64_S100000x1x64_0_2 x⟩,
     ⟨S100000x1x64, broadcastInDim S100000x1x64 ![0, 2] bcast_S100000x64_S100000x1x64_0_2 h1⟩,
     ⟨S100000x1x64, broadcastInDim S100000x1x64 ![0, 2] bcast_S100000x64_S100000x1x64_0_2 h2⟩,
     ⟨S100000x1x64, broadcastInDim S100000x1x64 ![0, 2] bcast_S100000x64_S100000x1x64_0_2 h3⟩]
    concatenates_S100000x1x64_S100000x1x64_S100000x1x64_S100000x1x64_S100000x4x64_d1

/-- The result: the mean of the input and of three successive layers. -/
def G (x : FVec Ideal S100000x64 .f32) (a1 a2 : Vec Ideal S1600000 .i32) (w : FVec Ideal S1600000 .f32) :
    FVec Ideal S100000x64 .f32 :=
  pool (stack x (layer x a1 a2 w) (layer (layer x a1 a2 w) a1 a2 w) (layer (layer (layer x a1 a2 w) a1 a2 w) a1 a2 w))

end Cert.Spec

end
-- ==== Proof.KI.Val0.lean ====
/-
  What the first edge-weighting call leaves in its output array, as one function of the two arrays
  it reads: entry (e, f) is row e, feature f of the gathered rows times the weight in row e of the weight column.
  Grid point t reads rows 10000·t … 10000·t + 9999 of both inputs and writes the same rows of the output, so
  what it writes back is that block of the function; the 160 blocks tile the 1600000 rows, so the write-backs
  together leave the whole function.
-/
import proofs.«148305_j70188355551648_1_alg».proof.Proof.KI.Reg0
import proofs.«148305_j70188355551648_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body's value at row p, feature q of a block: the row entry times the row's weight. -/
theorem pay0_apply (x0 : Vec Ideal S10000x64 .f32) (x1 : Vec Ideal S10000x1 .f32) (p : Fin 10000) (q : Fin 64) :
    k0_pay1 x0 x1 (ix2 p q) = x0 (ix2 p q) * x1 (ix2 p 0) := by
  unfold k0_pay1
  rw [mulf_apply, shapeCast_self, shapeCast_self]
  refine congrArg (x0 (ix2 p q) * ·) ?_
  refine broadcastTo_apply _ _ _ (ix2 p 0) fun a => ?_
  match a with
  | ⟨0, _⟩ => first | rfl | (rw [if_neg (by decide)]; rfl)
  | ⟨1, _⟩ => first | rfl | (rw [if_pos (by decide)]; rfl)

/-- Where the three windows' blocks sit at grid point t: all on block row t, block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the whole-array product. -/
theorem flushed0_eq (c : Dev nD) (t : Fin cfg0.N) :
    (dat0 V c).flushed 2 t = ((cfg0.win 2).blk t).view.read (Elt Ideal) (Spec.wcol (V c main_v7) (V c main_v0)) := by
  show (cfg0.win 2).cut (grid0.coords t) ((dat0 V c).after 2 t) = _
  rw [after0_2]
  unfold out0_2
  rw [View.canon_unit_zero hz2]
  simp only [View.ld_unit_zero (S := S10000x64) hz2, View.ld_unit_zero (S := S10000x1) hz2]
  obtain ⟨e0, e1, e2, e3, e4, e5⟩ := idx_facts0 t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
    = Spec.wcol (V c main_v7) (V c main_v0) (((cfg0.win 2).blk t).view.emb (ix2 p q))
  refine (pay0_apply _ _ p q).trans ?_
  unfold Spec.wcol
  have hp : p.val < 10000 := p.isLt
  have hq : q.val < 64 := q.isLt
  have h0 : (iblk0 V c 0 t : S10000x64.Idx → EReal) (ix2 p q) = V c main_v7 (((cfg0.win 2).blk t).view.emb (ix2 p q)) := by
    show V c main_v7 (((cfg0.win 0).blk t).view.emb (ix2 p q)) = _
    refine congrArg _ (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * q.val = win0_2.index t (1 : Fin 2) * 64 + 1 * q.val; omega
  have h1 : (iblk0 V c 1 t : S10000x1.Idx → EReal) (ix2 p 0)
      = V c main_v0 (ix2 ((((cfg0.win 2).blk t).view.emb (ix2 p q)) 0) 0) := by
    show V c main_v0 (((cfg0.win 1).blk t).view.emb (ix2 p 0)) = _
    refine congrArg _ (funext fun a => Fin.ext ?_)
    match a with
    | ⟨0, _⟩ => show win0_1.index t (0 : Fin 2) * 10000 + 1 * p.val = win0_2.index t (0 : Fin 2) * 10000 + 1 * p.val; omega
    | ⟨1, _⟩ => show win0_1.index t (1 : Fin 2) * 1 + 1 * 0 = 0; omega
  rw [h0, h1]

/-- An index of the output array is in point t's block iff each coordinate is in the block's range. -/
theorem mem_blk0 (t : Fin cfg0.N) (i : S1600000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v8).slice (win0_2.rect t)).set ↔ _
  rw [View.set_slice_whole, Rect.mem_set_unit]
  exact Iff.rfl

/-- Row r of the output is written by point r / 10000. -/
theorem cover0 (i : S1600000x64.Idx) :
    ∃ t : Fin cfg0.N, (cfg0.win 2).flush t = true ∧ i ∈ ((cfg0.win 2).blk t).view.set := by
  have hi0 : (i 0).val < 1600000 := (i 0).isLt
  have hi1 : (i 1).val < 64 := (i 1).isLt
  have hN : cfg0.N = 160 := N_0
  have ht : (i 0).val / 10000 < cfg0.N := by rw [hN]; omega
  obtain ⟨e0, e1, e2, e3, e4, e5⟩ := idx_facts0 ⟨(i 0).val / 10000, ht⟩
  refine ⟨⟨(i 0).val / 10000, ht⟩, flush0_2 _, ?_⟩
  rw [mem_blk0]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    rw [e5]; omega

/-- The output array after the call: the whole-array product of what the call found in its two input arrays. -/
theorem final0 (c : Dev nD) : (dat0 V c).arrAt 2 cfg0.N = Spec.wcol (V c main_v7) (V c main_v0) :=
  (dat0 V c).arrAt_eq_of_cover 2 (Spec.wcol (V c main_v7) (V c main_v0)) (fun t _ => flushed0_eq V c t) cover0

end Cert.KernelIdeal.Val

end
-- ==== Proof.KI.Val1.lean ====
/-
  What the second edge-weighting call leaves in its output array, as one function of the two arrays
  it reads: entry (e, f) is row e, feature f of the gathered rows times the weight in row e of the weight column.
  Grid point t reads rows 10000·t … 10000·t + 9999 of both inputs and writes the same rows of the output, so
  what it writes back is that block of the function; the 160 blocks tile the 1600000 rows, so the write-backs
  together leave the whole function.
-/
import proofs.«148305_j70188355551648_1_alg».proof.Proof.KI.Reg1
import proofs.«148305_j70188355551648_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body's value at row p, feature q of a block: the row entry times the row's weight. -/
theorem pay1_apply (x0 : Vec Ideal S10000x64 .f32) (x1 : Vec Ideal S10000x1 .f32) (p : Fin 10000) (q : Fin 64) :
    k1_pay1 x0 x1 (ix2 p q) = x0 (ix2 p q) * x1 (ix2 p 0) := by
  unfold k1_pay1
  rw [mulf_apply, shapeCast_self, shapeCast_self]
  refine congrArg (x0 (ix2 p q) * ·) ?_
  refine broadcastTo_apply _ _ _ (ix2 p 0) fun a => ?_
  match a with
  | ⟨0, _⟩ => first | rfl | (rw [if_neg (by decide)]; rfl)
  | ⟨1, _⟩ => first | rfl | (rw [if_pos (by decide)]; rfl)

/-- Where the three windows' blocks sit at grid point t: all on block row t, block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array product. -/
theorem flushed1_eq (c : Dev nD) (t : Fin cfg1.N) :
    (dat1 V c).flushed 2 t = ((cfg1.win 2).blk t).view.read (Elt Ideal) (Spec.wcol (V c main_v18) (V c main_v0)) := by
  show (cfg1.win 2).cut (grid1.coords t) ((dat1 V c).after 2 t) = _
  rw [after1_2]
  unfold out1_2
  rw [View.canon_unit_zero hz2]
  simp only [View.ld_unit_zero (S := S10000x64) hz2, View.ld_unit_zero (S := S10000x1) hz2]
  obtain ⟨e0, e1, e2, e3, e4, e5⟩ := idx_facts1 t
  funext j
  obtain ⟨p, q, rfl⟩ : ∃ (p : Fin 10000) (q : Fin 64), j = ix2 p q := ⟨j 0, j 1, eq_ix2 j⟩
  show k1_pay1 (iblk1 V c 0 t) (iblk1 V c 1 t) (ix2 p q)
    = Spec.wcol (V c main_v18) (V c main_v0) (((cfg1.win 2).blk t).view.emb (ix2 p q))
  refine (pay1_apply _ _ p q).trans ?_
  unfold Spec.wcol
  have hp : p.val < 10000 := p.isLt
  have hq : q.val < 64 := q.isLt
  have h0 : (iblk1 V c 0 t : S10000x64.Idx → EReal) (ix2 p q) = V c main_v18 (((cfg1.win 2).blk t).view.emb (ix2 p q)) := by
    show V c main_v18 (((cfg1.win 0).blk t).view.emb (ix2 p q)) = _
    refine congrArg _ (funext fun a => Fin.ext ?_)
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : (iblk1 V c 1 t : S10000x1.Idx → EReal) (ix2 p 0)
      = V c main_v0 (ix2 ((((cfg1.win 2).blk t).view.emb (ix2 p q)) 0) 0) := by
    show V c main_v0 (((cfg1.win 1).blk t).view.emb (ix2 p 0)) = _
    refine congrArg _ (funext fun a => Fin.ext ?_)
    match a with
    | ⟨0, _⟩ => show win1_1.index t (0 : Fin 2) * 10000 + 1 * p.val = win1_2.index t (0 : Fin 2) * 10000 + 1 * p.val; omega
    | ⟨1, _⟩ => show win1_1.index t (1 : Fin 2) * 1 + 1 * 0 = 0; omega
  rw [h0, h1]

/-- An index of the output array is in point t's block iff each coordinate is in the block's range. -/
theorem mem_blk1 (t : Fin cfg1.N) (i : S1600000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v19).slice (win1_2.rect t)).set ↔ _
  rw [View.set_slice_whole, Rect.mem_set_unit]
  exact Iff.rfl

/-- Row r of the output is written by point r / 10000. -/
theorem cover1 (i : S1600000x64.Idx) :
    ∃ t : Fin cfg1.N, (cfg1.win 2).flush t = true ∧ i ∈ ((cfg1.win 2).blk t).view.set := by
  have hi0 : (i 0).val < 1600000 := (i 0).isLt
  have hi1 : (i 1).val < 64 := (i 1).isLt
  have hN : cfg1.N = 160 := N_1
  have ht : (i 0).val / 10000 < cfg1.N := by rw [hN]; omega
  obtain ⟨e0, e1, e2, e3, e4, e5⟩ := idx_facts1 ⟨(i 0).val / 10000, ht⟩
  refine ⟨⟨(i 0).val / 10000, ht⟩, flush1_2 _, ?_⟩
  rw [mem_blk1]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val ∧ (i 1).val < win1_2.index ⟨(i 0).val / 10000, ht⟩ (1 : Fin 2) * 64 + 64
    rw [e5]; omega

/-- The output array after the call: the whole-array product of what the call found in its two input arrays. -/
theorem final1 (c : Dev nD) : (dat1 V c).arrAt 2 cfg1.N = Spec.wcol (V c main_v18) (V c main_v0) :=
  (dat1 V c).arrAt_eq_of_cover 2 (Spec.wcol (V c main_v18) (V c main_v0)) (fun t _ => flushed1_eq V c t) cover1

end Cert.KernelIdeal.Val

end
-- ==== Proof.KI.Val2.lean ====
/-
  What the third edge-weighting call leaves in its output array, as one function of the two arrays
  it reads: entry (e, f) is row e, feature f of the gathered rows times the weight in row e of the weight column.
  Grid point t reads rows 10000·t … 10000·t + 9999 of both inputs and writes the same rows of the output, so
  what it writes back is that block of the function; the 160 blocks tile the 1600000 rows, so the write-backs
  together leave the whole function.
-/
import proofs.«148305_j70188355551648_1_alg».proof.Proof.KI.Reg2
import proofs.«148305_j70188355551648_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body's value at row p, feature q of a block: the row entry times the row's weight. -/
theorem pay2_apply (x0 : Vec Ideal S10000x64 .f32) (x1 : Vec Ideal S10000x1 .f32) (p : Fin 10000) (q : Fin 64) :
    k2_pay1 x0 x1 (ix2 p q) = x0 (ix2 p q) * x1 (ix2 p 0) := by
  unfold k2_pay1
  rw [mulf_apply, shapeCast_self, shapeCast_self]
  refine congrArg (x0 (ix2 p q) * ·) ?_
  refine broadcastTo_apply _ _ _ (ix2 p 0) fun a => ?_
  match a with
  | ⟨0, _⟩ => first | rfl | (rw [if_neg (by decide)]; rfl)
  | ⟨1, _⟩ => first | rfl | (rw [if_pos (by decide)]; rfl)

/-- Where the three windows' blocks sit at grid point t: all on block row t, block column 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the whole-array product. -/
theorem flushed2_eq (c : Dev nD) (t : Fin cfg2.N) :
    (dat2 V c).flushed 2 t = ((cfg2.win 2).blk t).view.read (Elt Ideal) (Spec.wcol (V c main_v29) (V c main_v0)) := by
  show (cfg2.win 2).cut (grid2.coords t) ((dat2 V c).after 2 t) = _
  rw [after2_2]
  unfold out2_2
  rw [View.canon_unit_zero hz2]
  simp only [View.ld_unit_zero (S := S10000x64) hz2, View.ld_unit_zero (S := S10000x1) hz2]
  obtain ⟨e0, e1, e2, e3, e4, e5⟩ := idx_facts2 t
  funext j
  obtain ⟨p, q, rfl⟩ : ∃ (p : Fin 10000) (q : Fin 64), j = ix2 p q := ⟨j 0, j 1, eq_ix2 j⟩
  show k2_pay1 (iblk2 V c 0 t) (iblk2 V c 1 t) (ix2 p q)
    = Spec.wcol (V c main_v29) (V c main_v0) (((cfg2.win 2).blk t).view.emb (ix2 p q))
  refine (pay2_apply _ _ p q).trans ?_
  unfold Spec.wcol
  have hp : p.val < 10000 := p.isLt
  have hq : q.val < 64 := q.isLt
  have h0 : (iblk2 V c 0 t : S10000x64.Idx → EReal) (ix2 p q) = V c main_v29 (((cfg2.win 2).blk t).view.emb (ix2 p q)) := by
    show V c main_v29 (((cfg2.win 0).blk t).view.emb (ix2 p q)) = _
    refine congrArg _ (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * q.val = win2_2.index t (1 : Fin 2) * 64 + 1 * q.val; omega
  have h1 : (iblk2 V c 1 t : S10000x1.Idx → EReal) (ix2 p 0)
      = V c main_v0 (ix2 ((((cfg2.win 2).blk t).view.emb (ix2 p q)) 0) 0) := by
    show V c main_v0 (((cfg2.win 1).blk t).view.emb (ix2 p 0)) = _
    refine congrArg _ (funext fun a => Fin.ext ?_)
    match a with
    | ⟨0, _⟩ => show win2_1.index t (0 : Fin 2) * 10000 + 1 * p.val = win2_2.index t (0 : Fin 2) * 10000 + 1 * p.val; omega
    | ⟨1, _⟩ => show win2_1.index t (1 : Fin 2) * 1 + 1 * 0 = 0; omega
  rw [h0, h1]

/-- An index of the output array is in point t's block iff each coordinate is in the block's range. -/
theorem mem_blk2 (t : Fin cfg2.N) (i : S1600000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v30).slice (win2_2.rect t)).set ↔ _
  rw [View.set_slice_whole, Rect.mem_set_unit]
  exact Iff.rfl

/-- Row r of the output is written by point r / 10000. -/
theorem cover2 (i : S1600000x64.Idx) :
    ∃ t : Fin cfg2.N, (cfg2.win 2).flush t = true ∧ i ∈ ((cfg2.win 2).blk t).view.set := by
  have hi0 : (i 0).val < 1600000 := (i 0).isLt
  have hi1 : (i 1).val < 64 := (i 1).isLt
  have hN : cfg2.N = 160 := N_2
  have ht : (i 0).val / 10000 < cfg2.N := by rw [hN]; omega
  obtain ⟨e0, e1, e2, e3, e4, e5⟩ := idx_facts2 ⟨(i 0).val / 10000, ht⟩
  refine ⟨⟨(i 0).val / 10000, ht⟩, flush2_2 _, ?_⟩
  rw [mem_blk2]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 64 ≤ (i 1).val ∧ (i 1).val < win2_2.index ⟨(i 0).val / 10000, ht⟩ (1 : Fin 2) * 64 + 64
    rw [e5]; omega

/-- The output array after the call: the whole-array product of what the call found in its two input arrays. -/
theorem final2 (c : Dev nD) : (dat2 V c).arrAt 2 cfg2.N = Spec.wcol (V c main_v29) (V c main_v0) :=
  (dat2 V c).arrAt_eq_of_cover 2 (Spec.wcol (V c main_v29) (V c main_v0)) (fun t _ => flushed2_eq V c t) cover2

end Cert.KernelIdeal.Val

end
-- ==== Proof.Consts.lean ====
/-
  The float constants the two programs spell, as the extended reals their bit patterns denote: the kernel's
  0.25 is the real 1/4 and the reference's 4.0 is the real 4, so multiplying by the one is dividing by the other.
-/
import Idealize.ShloMosaic.PureOps.Ideal
import Idealize.ShloMosaic.PureOps.Ideal.Laws

noncomputable section

namespace Cert.Consts

open Idealize.ShloMosaic

theorem quarter : Ideal.ofBits .f32 0x3E800000#32 = ((1 / 4 : ℝ) : EReal) := by
  simp [Ideal.ofBits, Ideal.ieee, -EReal.coe_mul]; norm_num

theorem four : Ideal.ofBits .f32 0x40800000#32 = ((4 : ℝ) : EReal) := by
  simp [Ideal.ofBits, Ideal.ieee, -EReal.coe_mul]; norm_num

end Cert.Consts

end
-- ==== Proof.KI.Val3.lean ====
/-
  What the pooling call leaves in its output array, as one function of the stacked array it reads: entry (n, f) is
  the sum over the four layers of the stacked array at node n, feature f, times one quarter. Grid point t reads
  nodes 4000·t … 4000·t + 3999 (all four layers, all features) and writes the same nodes of the output, so what
  it writes back is that block of the function; the 25 blocks tile the 100000 nodes, so the write-backs together
  leave the whole function.
-/
import proofs.«148305_j70188355551648_1_alg».proof.Proof.KI.Reg3
import proofs.«148305_j70188355551648_1_alg».proof.Proof.Consts
import proofs.«148305_j70188355551648_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The index the layer sum reads for layer k at node p, feature q. -/
theorem lift_eq (h : S4000x4x64.Reduces [1] S4000x64) (p : Fin 4000) (q : Fin 64) (k : Fin 4) :
    h.lift (ix2 p q) k = ix3 p k q :=
  funext fun a => Fin.ext (by match a with | ⟨0, _⟩ => rfl | ⟨1, _⟩ => rfl | ⟨2, _⟩ => rfl)

/-- The body's value at node p, feature q of a block: the four layers summed, times one quarter. -/
theorem pay3_apply (x0 : Vec Ideal S4000x4x64 .f32) (p : Fin 4000) (q : Fin 64) :
    k3_pay1 x0 (ix2 p q) = (∑ k : Fin 4, x0 (ix3 p k q)) * ((1 / 4 : ℝ) : EReal) := by
  unfold k3_pay1
  rw [mulf_apply, shapeCast_self]
  refine congrArg₂ (· * ·) ?_ ?_
  · refine (Ideal.multiReduction_add_single x0 0x00000000#32 reduces_S4000x4x64_S4000x64 (.inl rfl) rfl (ix2 p q)).trans ?_
    exact Finset.sum_congr rfl fun k _ => congrArg x0 (lift_eq _ p q k)
  · exact Consts.quarter

/-- Where the two windows' blocks sit at grid point t: on block row t, the other block coordinates 0. -/
theorem idx_facts3 : ∀ t : Fin cfg3.N, win3_0.index t (0 : Fin 3) = t.val ∧ win3_0.index t (1 : Fin 3) = 0
    ∧ win3_0.index t (2 : Fin 3) = 0
    ∧ win3_1.index t (0 : Fin 2) = t.val ∧ win3_1.index t (1 : Fin 2) = 0 :=
  (by decide +kernel : ∀ t : Fin grid3.N, _)

/-- What point t writes back is block t of the whole-array mean. -/
theorem flushed3_eq (c : Dev nD) (t : Fin cfg3.N) :
    (dat3 V c).flushed 1 t = ((cfg3.win 1).blk t).view.read (Elt Ideal) (Spec.pool (V c main_v38)) := by
  show (cfg3.win 1).cut (grid3.coords t) ((dat3 V c).after 1 t) = _
  rw [after3_1]
  unfold out3_1
  rw [View.canon_unit_zero hz2]
  simp only [View.ld_unit_zero (S := S4000x4x64) hz3]
  obtain ⟨e0, e1, e2, e3, e4⟩ := idx_facts3 t
  funext j
  obtain ⟨p, q, rfl⟩ : ∃ (p : Fin 4000) (q : Fin 64), j = ix2 p q := ⟨j 0, j 1, eq_ix2 j⟩
  show k3_pay1 (iblk3 V c 0 t) (ix2 p q) = Spec.pool (V c main_v38) (((cfg3.win 1).blk t).view.emb (ix2 p q))
  refine (pay3_apply _ p q).trans ?_
  unfold Spec.pool
  have hp : p.val < 4000 := p.isLt
  have hq : q.val < 64 := q.isLt
  refine congrArg (· * ((1 / 4 : ℝ) : EReal)) (Finset.sum_congr rfl fun k _ => ?_)
  have hk : k.val < 4 := k.isLt
  show V c main_v38 (((cfg3.win 0).blk t).view.emb (ix3 p k q)) = _
  refine congrArg _ (funext fun a => Fin.ext ?_)
  match a with
  | ⟨0, _⟩ => show win3_0.index t (0 : Fin 3) * 4000 + 1 * p.val = win3_1.index t (0 : Fin 2) * 4000 + 1 * p.val; omega
  | ⟨1, _⟩ => show win3_0.index t (1 : Fin 3) * 4 + 1 * k.val = k.val; omega
  | ⟨2, _⟩ => show win3_0.index t (2 : Fin 3) * 64 + 1 * q.val = win3_1.index t (1 : Fin 2) * 64 + 1 * q.val; omega

/-- An index of the output array is in point t's block iff each coordinate is in the block's range. -/
theorem mem_blk3 (t : Fin cfg3.N) (i : S100000x64.Idx) :
    i ∈ ((cfg3.win 1).blk t).view.set ↔ ∀ a : Fin 2, win3_1.index t a * S4000x64.size a ≤ (i a).val ∧ (i a).val < win3_1.index t a * S4000x64.size a + S4000x64.size a := by
  show i ∈ ((View.whole main_v39).slice (win3_1.rect t)).set ↔ _
  rw [View.set_slice_whole, Rect.mem_set_unit]
  exact Iff.rfl

/-- Node n of the output is written by point n / 4000. -/
theorem cover3 (i : S100000x64.Idx) :
    ∃ t : Fin cfg3.N, (cfg3.win 1).flush t = true ∧ i ∈ ((cfg3.win 1).blk t).view.set := by
  have hi0 : (i 0).val < 100000 := (i 0).isLt
  have hi1 : (i 1).val < 64 := (i 1).isLt
  have hN : cfg3.N = 25 := N_3
  have ht : (i 0).val / 4000 < cfg3.N := by rw [hN]; omega
  obtain ⟨e0, e1, e2, e3, e4⟩ := idx_facts3 ⟨(i 0).val / 4000, ht⟩
  refine ⟨⟨(i 0).val / 4000, ht⟩, flush3_1 _, ?_⟩
  rw [mem_blk3]
  intro a
  match a with
  | ⟨0, _⟩ =>
    show win3_1.index ⟨(i 0).val / 4000, ht⟩ (0 : Fin 2) * 4000 ≤ (i 0).val ∧ (i 0).val < win3_1.index ⟨(i 0).val / 4000, ht⟩ (0 : Fin 2) * 4000 + 4000
    rw [e3]; show (i 0).val / 4000 * 4000 ≤ (i 0).val ∧ (i 0).val < (i 0).val / 4000 * 4000 + 4000; omega
  | ⟨1, _⟩ =>
    show win3_1.index ⟨(i 0).val / 4000, ht⟩ (1 : Fin 2) * 64 ≤ (i 1).val ∧ (i 1).val < win3_1.index ⟨(i 0).val / 4000, ht⟩ (1 : Fin 2) * 64 + 64
    rw [e4]; omega

/-- The output array after the call: the whole-array mean of the stacked array the call found. -/
theorem final3 (c : Dev nD) : (dat3 V c).arrAt 1 cfg3.N = Spec.pool (V c main_v38) :=
  (dat3 V c).arrAt_eq_of_cover 1 (Spec.pool (V c main_v38)) (fun t _ => flushed3_eq V c t) cover3

end Cert.KernelIdeal.Val

end
-- ==== Proof.KI.Chain.lean ====
/-
  The kernel program's result as the specified function of its arguments.

  Walking the run's nine boundaries: the first host stretch turns the weights into a column and gathers the source
  rows of the input; the first call leaves rows times weights; the second stretch scatter-adds those into the first
  layer and gathers its source rows; and so on for three layers; the last stretch scatter-adds the third layer and
  stacks the input with the three layers; the pooling call leaves their mean. Buffers that a stretch does not write
  are carried unchanged: the argument arrays throughout, the weight column through the three calls that read it,
  each finished layer until it is stacked.
-/
import proofs.«148305_j70188355551648_1_alg».proof.Proof.KI.Run
import proofs.«148305_j70188355551648_1_alg».proof.Proof.KI.Val0
import proofs.«148305_j70188355551648_1_alg».proof.Proof.KI.Val1
import proofs.«148305_j70188355551648_1_alg».proof.Proof.KI.Val2
import proofs.«148305_j70188355551648_1_alg».proof.Proof.KI.Val3
import Idealize.ShloMosaic.Lib.StableHlo.Run
import proofs.«148305_j70188355551648_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-! ## Buffers carried unchanged -/

theorem W1_keep (r : Ref sig .tc) (h0 : r ∉ hostOps0_W) : W1 m ρ c (Proc.devRef .tc r) = m ((c : Thread nD τ).loc r) :=
  StableHlo.after_of_writes_sub hostOps0 _ hostOps0_writes h0
theorem W2_keep (r : Ref sig .tc) (h0 : r ∉ hostOps0_W) (g0 : ∀ w, Pipeline.arrRef spec0 w ≠ r) :
    W2 m ρ c (Proc.devRef .tc r) = m ((c : Thread nD τ).loc r) :=
  (W2_of_ne m ρ c r g0).trans (W1_keep m ρ c r h0)
theorem W3_keep (r : Ref sig .tc) (h0 : r ∉ hostOps0_W) (g0 : ∀ w, Pipeline.arrRef spec0 w ≠ r) (h1 : r ∉ hostOps1_W) :
    W3 m ρ c (Proc.devRef .tc r) = m ((c : Thread nD τ).loc r) :=
  (StableHlo.after_of_writes_sub hostOps1 _ hostOps1_writes h1).trans (W2_keep m ρ c r h0 g0)
theorem W4_keep (r : Ref sig .tc) (h0 : r ∉ hostOps0_W) (g0 : ∀ w, Pipeline.arrRef spec0 w ≠ r) (h1 : r ∉ hostOps1_W)
    (g1 : ∀ w, Pipeline.arrRef spec1 w ≠ r) : W4 m ρ c (Proc.devRef .tc r) = m ((c : Thread nD τ).loc r) :=
  (W4_of_ne m ρ c r g1).trans (W3_keep m ρ c r h0 g0 h1)
theorem W5_keep (r : Ref sig .tc) (h0 : r ∉ hostOps0_W) (g0 : ∀ w, Pipeline.arrRef spec0 w ≠ r) (h1 : r ∉ hostOps1_W)
    (g1 : ∀ w, Pipeline.arrRef spec1 w ≠ r) (h2 : r ∉ hostOps2_W) : W5 m ρ c (Proc.devRef .tc r) = m ((c : Thread nD τ).loc r) :=
  (StableHlo.after_of_writes_sub hostOps2 _ hostOps2_writes h2).trans (W4_keep m ρ c r h0 g0 h1 g1)
theorem W6_keep (r : Ref sig .tc) (h0 : r ∉ hostOps0_W) (g0 : ∀ w, Pipeline.arrRef spec0 w ≠ r) (h1 : r ∉ hostOps1_W)
    (g1 : ∀ w, Pipeline.arrRef spec1 w ≠ r) (h2 : r ∉ hostOps2_W) (g2 : ∀ w, Pipeline.arrRef spec2 w ≠ r) :
    W6 m ρ c (Proc.devRef .tc r) = m ((c : Thread nD τ).loc r) :=
  (W6_of_ne m ρ c r g2).trans (W5_keep m ρ c r h0 g0 h1 g1 h2)

/-- The weight column is read, never written, by each edge-weighting call, and no later host stretch writes it. -/
theorem W2_v0 : W2 m ρ c (Proc.devRef .tc main_v0) = W1 m ρ c (Proc.devRef .tc main_v0) :=
  (W2_arr m ρ c 1).trans (((dat0 (V1 m ρ) c).arrAt_in 1 rfl _).trans (A_eq0 (V1 m ρ) c 1))
theorem W3_v0 : W3 m ρ c (Proc.devRef .tc main_v0) = W1 m ρ c (Proc.devRef .tc main_v0) :=
  (StableHlo.after_of_writes_sub hostOps1 _ hostOps1_writes (by decide)).trans (W2_v0 m ρ c)
theorem W4_v0 : W4 m ρ c (Proc.devRef .tc main_v0) = W1 m ρ c (Proc.devRef .tc main_v0) :=
  ((W4_arr m ρ c 1).trans (((dat1 (V3 m ρ) c).arrAt_in 1 rfl _).trans (A_eq1 (V3 m ρ) c 1))).trans (W3_v0 m ρ c)
theorem W5_v0 : W5 m ρ c (Proc.devRef .tc main_v0) = W1 m ρ c (Proc.devRef .tc main_v0) :=
  (StableHlo.after_of_writes_sub hostOps2 _ hostOps2_writes (by decide)).trans (W4_v0 m ρ c)

/-! ## The four host stretches -/

/-- Read each host operation's result in turn. -/
local macro "host_results" : tactic => `(tactic| repeat (first
  | rw [StableHlo.nullary_result] | rw [StableHlo.unary_result] | rw [StableHlo.binary_result] | rw [StableHlo.ternary_result]
  | rw [StableHlo.reshape_result]
  | (rw [StableHlo.nullary_result_ne]; rotate_left; decide) | (rw [StableHlo.unary_result_ne]; rotate_left; decide)
  | (rw [StableHlo.binary_result_ne]; rotate_left; decide) | (rw [StableHlo.ternary_result_ne]; rotate_left; decide)
  | (rw [StableHlo.reshape_result_ne]; rotate_left; decide)))

/-- The weights as a column, and the column read back at a row. -/
def wcolOf (w : FVec Ideal S1600000 .f32) : FVec Ideal S1600000x1 .f32 :=
  shapeCast S1600000x1 w shapeCasts_S1600000_S1600000x1

theorem wcol_wcolOf (xs : FVec Ideal S1600000x64 .f32) (w : FVec Ideal S1600000 .f32) :
    Spec.wcol xs (wcolOf w) = Spec.wmul xs w := by
  funext i
  unfold Spec.wcol Spec.wmul wcolOf
  refine congrArg (xs i * ·) ?_
  refine shapeCast_apply w _ (ix2 (i 0) 0) (ix1 (i 0)) ?_
  simp only [Shape.rowMajor_val_two, Shape.rowMajor_val_one]
  show ((i 0).val : Nat) = (i 0).val * 1 + 0
  omega

theorem s0_v0 : W1 m ρ c (Proc.devRef .tc main_v0) = wcolOf (m ((c : Thread nD τ).loc main_arg3)) := by
  show StableHlo.after hostOps0 (W0 m ρ c) (Proc.devRef .tc main_v0) = _
  after_results <;> rfl

theorem s0_v7 : W1 m ρ c (Proc.devRef .tc main_v7)
    = Host.gather gather_S100000x64_S1600000x1_S1600000x64_1_0_n_n_0_1_164 (m ((c : Thread nD τ).loc main_arg0))
        (Spec.srcIdx (m ((c : Thread nD τ).loc main_arg1))) := by
  show StableHlo.after hostOps0 (W0 m ρ c) (Proc.devRef .tc main_v7) = _
  after_results <;> rfl

/-! ## The three layers -/

/-- What the first call leaves: the gathered rows of the input times the weights. -/
theorem o0 : W2 m ρ c (Proc.devRef .tc main_v8) = Spec.wmul (Host.gather gather_S100000x64_S1600000x1_S1600000x64_1_0_n_n_0_1_164 (m ((c : Thread nD τ).loc main_arg0)) (Spec.srcIdx (m ((c : Thread nD τ).loc main_arg1)))) (m ((c : Thread nD τ).loc main_arg3)) := by
  refine (W2_arr m ρ c 2).trans ((final0 (V1 m ρ) c).trans ?_)
  show Spec.wcol (W1 m ρ c (Proc.devRef .tc main_v7)) (W1 m ρ c (Proc.devRef .tc main_v0)) = _
  rw [s0_v7, s0_v0, wcol_wcolOf]

/-- Layer 1: the scatter-add of what call 0 left. -/
theorem l1 : W3 m ρ c (Proc.devRef .tc main_v11) = (Spec.layer (m ((c : Thread nD τ).loc main_arg0)) (m ((c : Thread nD τ).loc main_arg1)) (m ((c : Thread nD τ).loc main_arg2)) (m ((c : Thread nD τ).loc main_arg3))) := by
  have e : W3 m ρ c (Proc.devRef .tc main_v11) = Host.scatterAdd (F := Ideal) scatter_S100000x64_S1600000x1_S1600000x64_1_0_0_1 (broadcastInDim S100000x64 ![] bcast_S_S100000x64 (constant (F := Ideal) S_ .f32 0x00000000#32))
      (broadcastInDim S1600000x1 ![0] bcast_S1600000_S1600000x1_0 (W2 m ρ c (Proc.devRef .tc main_arg2))) (W2 m ρ c (Proc.devRef .tc main_v8)) := by
    show StableHlo.after hostOps1 (W2 m ρ c) (Proc.devRef .tc main_v11) = _
    after_results <;> rfl
  rw [e, o0, W2_keep m ρ c main_arg2 (by decide) (by decide)]
  rfl

/-- The source rows of layer 1. -/
theorem g1 : W3 m ρ c (Proc.devRef .tc main_v18) = Host.gather gather_S100000x64_S1600000x1_S1600000x64_1_0_n_n_0_1_164 (Spec.layer (m ((c : Thread nD τ).loc main_arg0)) (m ((c : Thread nD τ).loc main_arg1)) (m ((c : Thread nD τ).loc main_arg2)) (m ((c : Thread nD τ).loc main_arg3))) (Spec.srcIdx (m ((c : Thread nD τ).loc main_arg1))) := by
  have e : W3 m ρ c (Proc.devRef .tc main_v18) = Host.gather gather_S100000x64_S1600000x1_S1600000x64_1_0_n_n_0_1_164 (W3 m ρ c (Proc.devRef .tc main_v11))
      (Spec.srcIdx (W2 m ρ c (Proc.devRef .tc main_arg1))) := by
    show StableHlo.after hostOps1 (W2 m ρ c) (Proc.devRef .tc main_v18)
      = Host.gather gather_S100000x64_S1600000x1_S1600000x64_1_0_n_n_0_1_164 (StableHlo.after hostOps1 (W2 m ρ c) (Proc.devRef .tc main_v11)) _
    after_results <;> rfl
  rw [e, l1, W2_keep m ρ c main_arg1 (by decide) (by decide)]

/-- What call 1 leaves: the gathered rows of layer 1 times the weights. -/
theorem o1 : W4 m ρ c (Proc.devRef .tc main_v19) = Spec.wmul (Host.gather gather_S100000x64_S1600000x1_S1600000x64_1_0_n_n_0_1_164 (Spec.layer (m ((c : Thread nD τ).loc main_arg0)) (m ((c : Thread nD τ).loc main_arg1)) (m ((c : Thread nD τ).loc main_arg2)) (m ((c : Thread nD τ).loc main_arg3))) (Spec.srcIdx (m ((c : Thread nD τ).loc main_arg1)))) (m ((c : Thread nD τ).loc main_arg3)) := by
  refine (W4_arr m ρ c 2).trans ((final1 (V3 m ρ) c).trans ?_)
  show Spec.wcol (W3 m ρ c (Proc.devRef .tc main_v18)) (W3 m ρ c (Proc.devRef .tc main_v0)) = _
  rw [g1, W3_v0, s0_v0, wcol_wcolOf]

/-- Layer 2: the scatter-add of what call 1 left. -/
theorem l2 : W5 m ρ c (Proc.devRef .tc main_v22) = (Spec.layer (Spec.layer (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg2)) (m ((c : Thread nD τ).loc main_arg3))) := by
  have e : W5 m ρ c (Proc.devRef .tc main_v22) = Host.scatterAdd (F := Ideal) scatter_S100000x64_S1600000x1_S1600000x64_1_0_0_1 (broadcastInDim S100000x64 ![] bcast_S_S100000x64 (constant (F := Ideal) S_ .f32 0x00000000#32))
      (broadcastInDim S1600000x1 ![0] bcast_S1600000_S1600000x1_0 (W4 m ρ c (Proc.devRef .tc main_arg2))) (W4 m ρ c (Proc.devRef .tc main_v19)) := by
    show StableHlo.after hostOps2 (W4 m ρ c) (Proc.devRef .tc main_v22) = _
    after_results <;> rfl
  rw [e, o1, W4_keep m ρ c main_arg2 (by decide) (by decide) (by decide) (by decide)]
  rfl

/-- The source rows of layer 2. -/
theorem g2 : W5 m ρ c (Proc.devRef .tc main_v29) = Host.gather gather_S100000x64_S1600000x1_S1600000x64_1_0_n_n_0_1_164 (Spec.layer (Spec.layer (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg2)) (m ((c : Thread nD τ).loc main_arg3))) (Spec.srcIdx (m ((c : Thread nD τ).loc main_arg1))) := by
  have e : W5 m ρ c (Proc.devRef .tc main_v29) = Host.gather gather_S100000x64_S1600000x1_S1600000x64_1_0_n_n_0_1_164 (W5 m ρ c (Proc.devRef .tc main_v22))
      (Spec.srcIdx (W4 m ρ c (Proc.devRef .tc main_arg1))) := by
    show StableHlo.after hostOps2 (W4 m ρ c) (Proc.devRef .tc main_v29)
      = Host.gather gather_S100000x64_S1600000x1_S1600000x64_1_0_n_n_0_1_164 (StableHlo.after hostOps2 (W4 m ρ c) (Proc.devRef .tc main_v22)) _
    after_results <;> rfl
  rw [e, l2, W4_keep m ρ c main_arg1 (by decide) (by decide) (by decide) (by decide)]

/-- What call 2 leaves: the gathered rows of layer 2 times the weights. -/
theorem o2 : W6 m ρ c (Proc.devRef .tc main_v30) = Spec.wmul (Host.gather gather_S100000x64_S1600000x1_S1600000x64_1_0_n_n_0_1_164 (Spec.layer (Spec.layer (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg2)) (m ((c : Thread nD τ).loc main_arg3))) (Spec.srcIdx (m ((c : Thread nD τ).loc main_arg1)))) (m ((c : Thread nD τ).loc main_arg3)) := by
  refine (W6_arr m ρ c 2).trans ((final2 (V5 m ρ) c).trans ?_)
  show Spec.wcol (W5 m ρ c (Proc.devRef .tc main_v29)) (W5 m ρ c (Proc.devRef .tc main_v0)) = _
  rw [g2, W5_v0, s0_v0, wcol_wcolOf]

/-- A finished layer is carried unchanged until it is stacked. -/
theorem W6_l1 : W6 m ρ c (Proc.devRef .tc main_v11) = (Spec.layer (m ((c : Thread nD τ).loc main_arg0)) (m ((c : Thread nD τ).loc main_arg1)) (m ((c : Thread nD τ).loc main_arg2)) (m ((c : Thread nD τ).loc main_arg3))) :=
  (W6_of_ne m ρ c main_v11 (by decide)).trans ((StableHlo.after_of_writes_sub hostOps2 _ hostOps2_writes (by decide)).trans
    ((W4_of_ne m ρ c main_v11 (by decide)).trans (l1 m ρ c)))
theorem W6_l2 : W6 m ρ c (Proc.devRef .tc main_v22) = (Spec.layer (Spec.layer (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg2)) (m ((c : Thread nD τ).loc main_arg3))) :=
  (W6_of_ne m ρ c main_v22 (by decide)).trans (l2 m ρ c)

/-- The stacked array the pooling call reads. -/
theorem s3_v38 : W7 m ρ c (Proc.devRef .tc main_v38) = Spec.stack (m ((c : Thread nD τ).loc main_arg0)) (Spec.layer (m ((c : Thread nD τ).loc main_arg0)) (m ((c : Thread nD τ).loc main_arg1)) (m ((c : Thread nD τ).loc main_arg2)) (m ((c : Thread nD τ).loc main_arg3))) (Spec.layer (Spec.layer (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg2)) (m ((c : Thread nD τ).loc main_arg3))) (Spec.layer (Spec.layer (Spec.layer (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg2)) (m ((c : Thread nD τ).loc main_arg3))) (m ((c : Thread nD τ).loc main_arg1)) (m ((c : Thread nD τ).loc main_arg2)) (m ((c : Thread nD τ).loc main_arg3))) := by
  have e : W7 m ρ c (Proc.devRef .tc main_v38) = Spec.stack (W6 m ρ c (Proc.devRef .tc main_arg0)) (W6 m ρ c (Proc.devRef .tc main_v11)) (W6 m ρ c (Proc.devRef .tc main_v22))
      (Host.scatterAdd (F := Ideal) scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (W6 m ρ c (Proc.devRef .tc main_arg2))) (W6 m ρ c (Proc.devRef .tc main_v30))) := by
    show StableHlo.after hostOps3 (W6 m ρ c) (Proc.devRef .tc main_v38) = _
    unfold Spec.stack
    simp only [StableHlo.after_cons, StableHlo.after_nil]
    rw [StableHlo.nary4_result]
    host_results
    rfl
  rw [e, o2, W6_l1, W6_l2, W6_keep m ρ c main_arg0 (by decide) (by decide) (by decide) (by decide) (by decide) (by decide),
    W6_keep m ρ c main_arg2 (by decide) (by decide) (by decide) (by decide) (by decide) (by decide)]
  rfl

/-- THE RESULT: after the run the result buffer holds the specified function of the argument arrays. -/
theorem result_eq : W8 m ρ c (Proc.devRef .tc main_v39) = Spec.G (m ((c : Thread nD τ).loc main_arg0)) (m ((c : Thread nD τ).loc main_arg1)) (m ((c : Thread nD τ).loc main_arg2)) (m ((c : Thread nD τ).loc main_arg3)) := by
  refine (W8_arr m ρ c 1).trans ((final3 (V7 m ρ) c).trans ?_)
  show Spec.pool (W7 m ρ c (Proc.devRef .tc main_v38)) = _
  rw [s3_v38]
  rfl

/-- The run of the idealized kernel program, read: the result buffer at the specified function, the arguments as launched. -/
theorem run : θ_run defs (onTc (τ := τ) (main (F := Ideal))) ⟨m, fun _ => 0, ρ⟩ (fun r => ∀ c : Dev nD,
      r.2.mem ((c.tc : Thread nD τ).loc main_v39) = Spec.G (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v39 (by decide))).trans (result_eq m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c)⟩) (run_all m ρ)

end Cert.KernelIdeal.Val

end
-- ==== Proof.RefVal.lean ====
/-
  The reference program's result is the specified function of its arguments.

  The reference computes a layer as a scatter-add, from zero, of the gathered source rows times the edge weights
  broadcast across the 64 features: at (e, f) that product is the row entry times the weight of edge e, which is the
  per-edge weighting of the specification. Its mean over the four stacked arrays is their sum along the middle axis
  (started from zero) divided by 4, and dividing an extended real by 4 is multiplying it by one quarter. Everything
  else — the source indices, the gather, the scatter-add, the stacking — is the same operation in both.
-/
import proofs.«148305_j70188355551648_1_alg».proof.Proof.Gen.ReferenceIdeal.Read
import proofs.«148305_j70188355551648_1_alg».proof.Proof.Spec
import proofs.«148305_j70188355551648_1_alg».proof.Proof.Consts
import Idealize.ShloMosaic.PureOps.Ideal.Laws
import Idealize.ShloMosaic.Lib.ValueIdx
import Idealize.ShloMosaic.Lib.Pipeline.Value

noncomputable section

namespace Cert.RefVal

open Cert.ReferenceIdeal Cert.ReferenceIdeal.Gen Cert.ReferenceIdeal.Read
open Idealize.ShloMosaic Idealize.ShloMosaic.TcCoe Idealize.SL.Sem Idealize.ShloMosaic.ValueIdx

/-- Rows times weights broadcast across the features is the per-edge weighting. -/
theorem mul_bcast (xs : FVec Ideal S1600000x64 .f32) (w : FVec Ideal S1600000 .f32) :
    mulf xs (broadcastInDim S1600000x64 ![0, 1] bcast_S1600000x1_S1600000x64_0_1
      (broadcastInDim S1600000x1 ![0] bcast_S1600000_S1600000x1_0 w)) = Cert.Spec.wmul xs w := by
  funext i
  rw [mulf_apply]
  unfold Cert.Spec.wmul
  refine congrArg (xs i * ·) ?_
  refine (broadcastInDim_apply _ bcast_S1600000x1_S1600000x64_0_1 _ i (ix2 (i 0) 0) fun a => ?_).trans
    (broadcastInDim_apply _ bcast_S1600000_S1600000x1_0 w (ix2 (i 0) 0) (ix1 (i 0)) fun a => ?_)
  · match a with
    | ⟨0, _⟩ => show (i 0).val = if (1600000 : Nat) = 1 then 0 else (i 0).val; rw [if_neg (by decide)]
    | ⟨1, _⟩ => show (0 : Nat) = if (1 : Nat) = 1 then 0 else (i 1).val; rw [if_pos rfl]
  · match a with
    | ⟨0, _⟩ => show (i 0).val = if (1600000 : Nat) = 1 then 0 else (i 0).val; rw [if_neg (by decide)]

/-- One layer of the reference is one layer of the specification. -/
theorem layer_ref (h : FVec Ideal S100000x64 .f32) (x1 x2 : Vec Ideal S1600000 .i32) (x3 : FVec Ideal S1600000 .f32) :
    Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 x2)
      (mulf (Host.gather gather_S100000x64_S1600000x1_S1600000x64_1_0_n_n_0_1_164 h
          (broadcastInDim S1600000x1 ![0] bcast_S1600000_S1600000x1_0
            (select (cmpi .slt x1 (broadcastInDim S1600000 ![] bcast_S_S1600000 (constantI S_ 32 0#32)))
              (addi x1 (broadcastInDim S1600000 ![] bcast_S_S1600000 (constantI S_ 32 100000#32))) x1)))
        (broadcastInDim S1600000x64 ![0, 1] bcast_S1600000x1_S1600000x64_0_1
          (broadcastInDim S1600000x1 ![0] bcast_S1600000_S1600000x1_0 x3)))
    = Cert.Spec.layer h x1 x2 x3 := by
  rw [mul_bcast]
  rfl

/-- The sum along the middle axis from zero, divided by 4, is the specification's mean. -/
theorem pool_ref (st : FVec Ideal S100000x4x64 .f32) :
    Host.divf (Host.reduceAdd (F := Ideal) st (constant (F := Ideal) S_ .f32 0x00000000#32) reducesTo_S100000x4x64_S100000x64_d1 h_S_)
      (broadcastInDim S100000x64 ![] bcast_S_S100000x64 (constant (F := Ideal) S_ .f32 0x40800000#32)) = Cert.Spec.pool st := by
  funext i
  have hs : Host.reduceAdd (F := Ideal) st (constant (F := Ideal) S_ .f32 0x00000000#32) reducesTo_S100000x4x64_S100000x64_d1 h_S_ i
      = 0 + ∑ k : Fin 4, st (ix3 (i 0) k (i 1)) := by
    simp only [Host.reduceAdd, Ideal.hostReduceAdd_def]
    rw [Ideal.hostReduceAdd_single reducesTo_S100000x4x64_S100000x64_d1 (by decide)]
    refine congrArg₂ (· + ·) Ideal.ofBits_zero_f32
      (Finset.sum_congr rfl fun k _ => congrArg st (funext fun a => Fin.ext (by match a with | ⟨0, _⟩ => rfl | ⟨1, _⟩ => rfl | ⟨2, _⟩ => rfl)))
  have hd : broadcastInDim S100000x64 ![] bcast_S_S100000x64 (constant (F := Ideal) S_ .f32 0x40800000#32) i = ((4 : ℝ) : EReal) :=
    (broadcastInDim_apply _ bcast_S_S100000x64 _ i (fun a => a.elim0) (fun a => a.elim0)).trans Cert.Consts.four
  show FloatOps.hostDivf _ _ = _
  rw [hs, hd, Ideal.hostDivf_def, Ideal.div_coe (by norm_num : (4 : ℝ) ≠ 0), zero_add]
  rfl

/-- The reference's result stage is the specified function of the four arguments. -/
theorem stage_eq (x0 : FVec Ideal S100000x64 .f32) (x1 x2 : Vec Ideal S1600000 .i32) (x3 : FVec Ideal S1600000 .f32) :
    val_main_v46 (F := Ideal) x0 x1 x2 x3 = Cert.Spec.G x0 x1 x2 x3 := by
  have h1 : val_main_v12 (F := Ideal) x0 x1 x2 x3 = Cert.Spec.layer x0 x1 x2 x3 := layer_ref x0 x1 x2 x3
  have h2 : val_main_v25 (F := Ideal) x0 x1 x2 x3 = Cert.Spec.layer (Cert.Spec.layer x0 x1 x2 x3) x1 x2 x3 :=
    (layer_ref (val_main_v12 (F := Ideal) x0 x1 x2 x3) x1 x2 x3).trans (by rw [h1])
  have h3 : val_main_v38 (F := Ideal) x0 x1 x2 x3
      = Cert.Spec.layer (Cert.Spec.layer (Cert.Spec.layer x0 x1 x2 x3) x1 x2 x3) x1 x2 x3 :=
    (layer_ref (val_main_v25 (F := Ideal) x0 x1 x2 x3) x1 x2 x3).trans (by rw [h2])
  have hst : val_main_v43 (F := Ideal) x0 x1 x2 x3 = Cert.Spec.stack x0 (Cert.Spec.layer x0 x1 x2 x3)
      (Cert.Spec.layer (Cert.Spec.layer x0 x1 x2 x3) x1 x2 x3)
      (Cert.Spec.layer (Cert.Spec.layer (Cert.Spec.layer x0 x1 x2 x3) x1 x2 x3) x1 x2 x3) := by
    unfold val_main_v43 val_main_v39 val_main_v40 val_main_v41 val_main_v42
    rw [h1, h2, h3]
    rfl
  unfold Cert.Spec.G
  rw [← hst]
  exact pool_ref _

/-- The reference run's result term is the specified function of the launch contents of the arguments. -/
theorem result_eq (m : (ℓ : Loc nD τ sig) → Buf (Elt Ideal) ℓ) (c : Dev nD) :
    Cert.ReferenceIdeal.Value.res_main_v46 m c = Cert.Spec.G (m ((c.tc : Thread nD τ).loc main_arg0))
      (m ((c.tc : Thread nD τ).loc main_arg1)) (m ((c.tc : Thread nD τ).loc main_arg2)) (m ((c.tc : Thread nD τ).loc main_arg3)) :=
  (val_main_v46_eq m c).trans (stage_eq _ _ _ _)

end Cert.RefVal

end
-- ==== Proof.lean ====
/-
  Three rounds of edge-weighted neighbour summation on a graph, averaged with the input.

  Both programs compute, for node features x (100000 × 64), edge sources and destinations (1600000 each) and edge
  weights: h₁ = A x, h₂ = A h₁, h₃ = A h₂, where A h scatter-adds, from zero, the source row of every edge times the
  edge's weight into the edge's destination row; the result is (x + h₁ + h₂ + h₃) / 4, taken as the sum of the four
  arrays stacked along a new axis.

  The kernel program runs the per-edge multiplication as a blocked call (160 blocks of 10000 edges) on the rows the
  host gathered, and the final mean as a blocked call (25 blocks of 4000 nodes) that sums the four layers and multiplies
  by 0.25; the gather, the scatter-add and the stacking are host operations in both programs. On the extended reals the
  blocked product is the reference's product entry by entry, the blocks tile their arrays, and multiplying by 1/4 is
  dividing by 4, so the two results are one function of the arguments (Proof/Spec.lean). No law used needs finiteness:
  the precondition is never opened.

  The frames of the two kernel programs come from one run of the whole program through its eight stretches (host
  operations and calls alternating), which also names the contents of every buffer at the end; the reference's frame
  is its run with the result dropped. The idealization rewrote nothing, so `preserves` is trivial.
-/
import proofs.«148305_j70188355551648_1_alg».proof.Defs
import proofs.«148305_j70188355551648_1_alg».proof.Proof.Gen.Kernel
import proofs.«148305_j70188355551648_1_alg».proof.Proof.Gen.KernelIdeal
import proofs.«148305_j70188355551648_1_alg».proof.Proof.Gen.ReferenceIdeal
import proofs.«148305_j70188355551648_1_alg».proof.Proof.Gen.ReferenceIdeal.Run
import proofs.«148305_j70188355551648_1_alg».proof.Proof.Gen.Pre_finite_inputs
import proofs.«148305_j70188355551648_1_alg».proof.Proof.KB.Run
import proofs.«148305_j70188355551648_1_alg».proof.Proof.KI.Run
import proofs.«148305_j70188355551648_1_alg».proof.Proof.KI.Chain
import proofs.«148305_j70188355551648_1_alg».proof.Proof.RefVal

noncomputable section

namespace Cert.Proof

open Idealize.ShloMosaic Idealize.ShloMosaic.TcCoe Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- Both runs end with the result buffer at the specified function of the (agreeing) arguments. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  refine (Cert.RefVal.result_eq m' c).trans ?_
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
